-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x360 : Shape := ⟨2, ![16384, 360]⟩
abbrev S512x512 : Shape := ⟨2, ![512, 512]⟩
abbrev S360x512 : Shape := ⟨2, ![360, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S16384x360 : S_.BroadcastsInDim S16384x360 (![] : Fin 0 → Fin S16384x360.rank)
  reducesTo_S16384x360_S_d0_1 : S16384x360.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S360x512 : S_.BroadcastsInDim S360x512 (![] : Fin 0 → Fin S360x512.rank)
  reducesTo_S360x512_S_d0_1 : S360x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512 .f32) (main_arg8 : FVec F S512x1 .f32) (main_arg9 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S512x1 .f32) (main_arg9 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x360 .f32) (main_arg1 : FVec F S512x512 .f32) (main_arg2 : FVec F S360x512 .f32) (main_arg3 : FVec F S512 .f32) (main_arg4 : FVec F S512x512 .f32) (main_arg5 : FVec F S512 .f32) (main_arg6 : FVec F S512x512 .f32) (main_arg7 : FVec F S512 .f32) (main_arg8 : FVec F S512x1 .f32) (main_arg9 : FVec F S1 .f32) : IVec S_ 1 :=
  let main_v0 : FVec F S16384x360 .f32 := Host.absf main_arg0
  let main_cst : FVec F S_ .f32 := constant S_ .f32 0x7F800000#32
  let main_v1 : FVec F S16384x360 .f32 := broadcastInDim S16384x360 ![] bcast_S_S16384x360 main_cst
  let main_v2 : IVec S16384x360 1 := cmpf .olt main_v0 main_v1
  let main_c : IVec S_ 1 := constantI S_ 1 1#1
  let main_v3 : IVec S_ 1 := (fun x v => Host.reduce IntOp.andi x v reducesTo_S16384x360_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S360x512 .f32 := Host.absf main_arg2
  let main_cst_2 : FVec F S_ .f32 := constant S_ .f32 0x7F800000#32
  let main_v10 : FVec F S360x512 .f32 := broadcastInDim S360x512 ![] bcast_S_S360x512 main_cst_2
  let main_v11 : IVec S360x512 1 := cmpf .olt main_v9 main_v10
  let main_c_3 : IVec S_ 1 := constantI S_ 1 1#1
  let main_v12 : IVec S_ 1 := (fun x v => Host.reduce IntOp.andi x v reducesTo_S360x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S16384x360 : Shape := ⟨2, ![16384, 360]⟩
abbrev S512x512 : Shape := ⟨2, ![512, 512]⟩
abbrev S360x512 : Shape := ⟨2, ![360, 512]⟩
abbrev S512 : Shape := ⟨1, ![512]⟩
abbrev S512x1 : Shape := ⟨2, ![512, 1]⟩
abbrev S1 : Shape := ⟨1, ![1]⟩
abbrev S360x16384 : Shape := ⟨2, ![360, 16384]⟩
abbrev S1x512 : Shape := ⟨2, ![1, 512]⟩
abbrev S1x16384 : Shape := ⟨2, ![1, 16384]⟩
abbrev S16384x512 : Shape := ⟨2, ![16384, 512]⟩
abbrev S16384x1 : Shape := ⟨2, ![16384, 1]⟩
abbrev S360x1024 : Shape := ⟨2, ![360, 1024]⟩
abbrev S1x1024 : Shape := ⟨2, ![1, 1024]⟩
abbrev S1024x512 : Shape := ⟨2, ![1024, 512]⟩
abbrev S1024 : Shape := ⟨1, ![1024]⟩
abbrev S1024x1 : Shape := ⟨2, ![1024, 1]⟩
abbrev S1x1 : Shape := ⟨2, ![1, 1]⟩

abbrev nBuf : Space → Nat
  | .hbm => 16
  | .vmem => 17
  | .smem => 0
  | _ => 0

abbrev bufTy : (tb : Table) → Fin (tcTables nBuf tb) → BufTy
  | .hbm, ⟨0, _⟩ => ⟨S16384x360, .f32⟩
  | .hbm, ⟨1, _⟩ => ⟨S512x512, .f32⟩
  | .hbm, ⟨2, _⟩ => ⟨S360x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S360x16384, .f32⟩
  | .hbm, ⟨11, _⟩ => ⟨S1x512, .f32⟩
  | .hbm, ⟨12, _⟩ => ⟨S1x16384, .f32⟩
  | .hbm, ⟨13, _⟩ => ⟨S16384x512, .f32⟩
  | .hbm, ⟨14, _⟩ => ⟨S16384x512, .f32⟩
  | .hbm, ⟨15, _⟩ => ⟨S16384x1, .f32⟩
  | .local _ .vmem, ⟨0, _⟩ => ⟨S360x1024, .f32⟩
  | .local _ .vmem, ⟨1, _⟩ => ⟨S360x1024, .f32⟩
  | .local _ .vmem, ⟨2, _⟩ => ⟨S512x512, .f32⟩
  | .local _ .vmem, ⟨3, _⟩ => ⟨S360x512, .f32⟩
  | .local _ .vmem, ⟨4, _⟩ => ⟨S512, .f32⟩
  | .local _ .vmem, ⟨5, _⟩ => ⟨S512x512, .f32⟩
  | .local _ .vmem, ⟨6, _⟩ => ⟨S512, .f32⟩
  | .local _ .vmem, ⟨7, _⟩ => ⟨S512x512, .f32⟩
  | .local _ .vmem, ⟨8, _⟩ => ⟨S512, .f32⟩
  | .local _ .vmem, ⟨9, _⟩ => ⟨S1x512, .f32⟩
  | .local _ .vmem, ⟨10, _⟩ => ⟨S1, .f32⟩
  | .local _ .vmem, ⟨11, _⟩ => ⟨S1x1024, .f32⟩
  | .local _ .vmem, ⟨12, _⟩ => ⟨S1x1024, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S16384x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2_0 : Ref sig .tc := ⟨.hbm, 12, rfl⟩
abbrev main_v0_1 : Ref sig .tc := ⟨.hbm, 13, rfl⟩
abbrev main_v0_2 : Ref sig .tc := ⟨.hbm, 14, rfl⟩
abbrev main_v0_0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S360x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S360x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S16384x360_S360x16384_1_0 : S16384x360.Transposes [1, 0] S360x16384
  transposes_S512x1_S1x512_1_0 : S512x1.Transposes [1, 0] S1x512
  transposes_S1x16384_S16384x1_1_0 : S1x16384.Transposes [1, 0] S16384x1
  inb_S360x1024_S360x1024_0_0 : ∀ a, (![0, 0] : Fin 2 → Nat) a + S360x1024.size a ≤ S360x1024.size a
  h_S360x1024 : 0 < S360x1024.numel
  shapeCasts_S360x1024_S360x1024 : S360x1024.ShapeCasts S360x1024
  inb_S360x512_S360x512_0_0 : ∀ a, (![0, 0] : Fin 2 → Nat) a + S360x512.size a ≤ S360x512.size a
  h_S360x512 : 0 < S360x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S1024x512_S1024 : S1024x512.Reduces [1] S1024
  shapeCasts_S1024_S1024x1 : S1024.ShapeCasts S1024x1
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1_S1_0 : ∀ a, (![0] : Fin 1 → Nat) a + S1.size a ≤ S1.size a
  h_S1 : 0 < S1.numel
  shapeCasts_S1_S1x1 : S1.ShapeCasts S1x1
  broadcasts_S1x1_S1x1024 : S1x1.Broadcasts S1x1024
  inb_S1x1024_S1x1024_0_0 : ∀ a, (![0, 0] : Fin 2 → Nat) a + S1x1024.size a ≤ S1x1024.size a
  h_S1x1024 : 0 < S1x1024.numel
  dot_S360x1024_S360x512_S1024x512_0_0_1_1_n_n_wf : DotDims.WF S360x1024 S360x512 S1024x512 [0] [0] [1] [1] [] []
  dot_S1024x512_S512x512_S1024x512_1_0_0_1_n_n_wf : DotDims.WF S1024x512 S512x512 S1024x512 [1] [0] [0] [1] [] []
  dot_S1x512_S1024x512_S1x1024_1_1_0_0_n_n_wf : DotDims.WF S1x512 S1024x512 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S360x1024.size a ≤ S360x16384.size a
  hwx0_0 : ∀ i : grid0.Coords, EltTy.bits .f32 = 32 ∨ (Rect.block (s := S360x16384) S360x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S360x512.size a ≤ S360x512.size a
  hwx0_2 : ∀ i : grid0.Coords, EltTy.bits .f32 = 32 ∨ (Rect.block (s := S360x512) S360x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x16384.size a
  hwx0_10 : ∀ i : grid0.Coords, EltTy.bits .f32 = 32 ∨ (Rect.block (s := S1x16384) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S16384x512.size a
  hwx0_11 : ∀ i : grid0.Coords, EltTy.bits .f32 = 32 ∨ (Rect.block (s := S16384x512) S1024x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S16384x512.size a
  hwx0_12 : ∀ i : grid0.Coords, EltTy.bits .f32 = 32 ∨ (Rect.block (s := S16384x512) S1024x512.size (cc0_transform_12 i) (hinb0_12 i)).WholeWords (EltTy.packing .f32)

variable [Facts₀]

def dot_S360x1024_S360x512_S1024x512_0_0_1_1_n_n : DotDims S360x1024 S360x512 S1024x512 where
  lhsContracting := [0]
  rhsContracting := [0]
  lhsNonContracting := [1]
  rhsNonContracting := [1]
  lhsBatch := []
  rhsBatch := []
  wf := dot_S360x1024_S360x512_S1024x512_0_0_1_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.ofSpec (Memref.whole main_call0_v0) S360x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S360x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v1) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v2_0) S1x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1024x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S1024x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x360 : Shape := ⟨2, ![16384, 360]⟩
abbrev S512x512 : Shape := ⟨2, ![512, 512]⟩
abbrev S360x512 : Shape := ⟨2, ![360, 512]⟩
abbrev S512 : Shape := ⟨1, ![512]⟩
abbrev S512x1 : Shape := ⟨2, ![512, 1]⟩
abbrev S1 : Shape := ⟨1, ![1]⟩
abbrev S16384x512 : Shape := ⟨2, ![16384, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S16384x360, .f32⟩
  | .hbm, ⟨1, _⟩ => ⟨S512x512, .f32⟩
  | .hbm, ⟨2, _⟩ => ⟨S360x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S16384x512, .f32⟩
  | .hbm, ⟨11, _⟩ => ⟨S1x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S512x512, .f32⟩
  | .hbm, ⟨32, _⟩ => ⟨S16384x512, .f32⟩
  | .hbm, ⟨33, _⟩ => ⟨S_, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S16384x512, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S1x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S16384x512, .f32⟩
  | .hbm, ⟨81, _⟩ => ⟨S16384x512, .f32⟩
  | .hbm, ⟨82, _⟩ => ⟨S_, .f32⟩
  | .hbm, ⟨83, _⟩ => ⟨S16384, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384x1, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .f32⟩
  | .hbm, ⟨98, _⟩ => ⟨S16384x1, .f32⟩
  | .hbm, ⟨99, _⟩ => ⟨S1x1, .f32⟩
  | .hbm, ⟨100, _⟩ => ⟨S16384x1, .f32⟩
  | .hbm, ⟨101, _⟩ => ⟨S16384x1, .f32⟩
  | _, _ => ⟨S16384x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S512x512_S512x512_1_0 : S512x512.Transposes [1, 0] S512x512
  reducesTo_S16384x512_S512_d0 : S16384x512.ReducesTo [0] S512
  h_S_ : 0 < S_.numel
  bcast_S_S512 : S_.BroadcastsInDim S512 (![] : Fin 0 → Fin S512.rank)
  reducesTo_S16384x512_S16384_d1 : S16384x512.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S512x512 : S_.BroadcastsInDim S512x512 (![] : Fin 0 → Fin S512x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x360_S360x512_S16384x512_1_0_0_1_n_n_wf : DotDims.WF S16384x360 S360x512 S16384x512 [1] [0] [0] [1] [] []
  dot_S16384x512_S512x512_S16384x512_1_0_0_1_n_n_wf : DotDims.WF S16384x512 S512x512 S16384x512 [1] [0] [0] [1] [] []
  dot_S16384x512_S512x1_S16384x1_1_0_0_1_n_n_wf : DotDims.WF S16384x512 S512x1 S16384x1 [1] [0] [0] [1] [] []

variable [Facts₀]

def dot_S16384x360_S360x512_S16384x512_1_0_0_1_n_n : DotDims S16384x360 S360x512 S16384x512 where
  lhsContracting := [1]
  rhsContracting := [0]
  lhsNonContracting := [0]
  rhsNonContracting := [1]
  lhsBatch := []
  rhsBatch := []
  wf := dot_S16384x360_S360x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.LibRowSoftmax.lean ====
/-
  A row of softmax weights against a memory bank, in two arrangements, on the extended reals at real entries.

  Fix a query row `h`, a memory bank `K` (rows `K m`), scores `s m` and positive weights `t m = exp (s m)`.
    • arrangement W ("weighted"): `(h j · (1 / ∑ m, t m)) · ∑ m, t m · K m j` — normalise once, outside the sum;
    • arrangement S ("softRead"): `h j · ∑ m, (exp (s m - c) / ∑ m', exp (s m' - c)) · K m j` — the softmax with
      a shift `c` subtracted from every score (any real `c`; a row maximum in practice), each weight normalised.
  Over the reals the two agree: `exp (s - c) = exp s / exp c`, the factor `exp c` cancels in every quotient, and
  `1 / ∑ t` distributes over the finite sum. With `t m = 1 / exp (s m) = exp (-s m)` the same holds for the scores
  `-s`. On the extended reals this is stated at entries that are images of reals, where every operation is
  the image of the real one (the total of the weights is positive, so no quotient meets a zero divisor).

  Also: the running maximum of finitely many reals, started from a value below `⊤`, is a real as soon as there
  is at least one of them.
-/
import Idealize.ShloMosaic.PureOps.Ideal

noncomputable section

namespace RowSoftmax

open Finset Idealize.ShloMosaic

/-- The image in the extended reals of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, computed on the extended reals. -/
theorem div_coe_coe (x y : ℝ) (hy : y ≠ 0) : Ideal.div (x : EReal) (y : EReal) = ((x / y : ℝ) : EReal) := by
  rw [Ideal.div_coe hy, ← EReal.coe_mul, mul_one_div]

variable {M H : Type*} [Fintype M] [Fintype H]

/-- Over the reals: normalising once outside the sum is the shifted softmax read against the bank. -/
theorem weighted_real [Nonempty M] (h c : ℝ) (t s k : M → ℝ) (ht : ∀ m, t m = Real.exp (s m)) :
    (h * (1 / ∑ m, t m)) * ∑ m, t m * k m
      = h * ∑ m, (Real.exp (s m - c) / ∑ m', Real.exp (s m' - c)) * k m := by
  have e1 : ∀ m, Real.exp (s m - c) = t m / Real.exp c := fun m => by rw [Real.exp_sub, ht]
  simp only [e1]
  rw [← Finset.sum_div]
  have e2 : ∀ m, t m / Real.exp c / ((∑ m', t m') / Real.exp c) = t m / ∑ m', t m' := fun m =>
    div_div_div_cancel_right₀ (Real.exp_ne_zero c) _ _
  simp only [e2]
  rw [mul_assoc, Finset.mul_sum]
  exact congrArg (h * ·) (Finset.sum_congr rfl fun m _ => by ring)

/-- Arrangement W on the extended reals: the weights `t` normalised once, outside the sum over the bank. -/
def weighted (h : H → EReal) (t : M → EReal) (K : M → H → EReal) : H → EReal :=
  fun j => (h j * Ideal.div 1 (∑ m, t m)) * ∑ m, t m * K m j

/-- Arrangement S on the extended reals: the softmax of the scores `s` shifted by `c`, read against the bank. -/
def softRead (h : H → EReal) (s : M → EReal) (c : EReal) (K : M → H → EReal) : H → EReal :=
  fun j => h j * ∑ m, Ideal.div (Ideal.exp (s m - c)) (∑ m', Ideal.exp (s m' - c)) * K m j

theorem sum_exp_ne_zero [Nonempty M] (s : M → ℝ) : (∑ m, Real.exp (s m)) ≠ 0 :=
  ne_of_gt (Finset.sum_pos (fun m _ => Real.exp_pos _) Finset.univ_nonempty)

/-- With weights `exp s`: arrangement W is arrangement S of the scores `s`, at real entries and any real shift. -/
theorem weighted_exp_eq_softRead [Nonempty M] (h : H → ℝ) (s : M → ℝ) (c : ℝ) (K : M → H → ℝ) :
    weighted (fun j => (h j : EReal)) (fun m => Ideal.exp (s m : EReal)) (fun m j => (K m j : EReal))
      = softRead (fun j => (h j : EReal)) (fun m => (s m : EReal)) (c : EReal) (fun m j => (K m j : EReal)) := by
  funext j
  unfold weighted softRead
  simp only [Ideal.exp_coe, ← EReal.coe_sub, ← coe_sum]
  rw [← EReal.coe_one, div_coe_coe _ _ (sum_exp_ne_zero s)]
  simp only [div_coe_coe _ _ (sum_exp_ne_zero fun m => s m - c), ← EReal.coe_mul, ← coe_sum]
  exact congrArg _ (weighted_real (h j) c (fun m => Real.exp (s m)) s (fun m => K m j) fun _ => rfl)

/-- With weights `1 / exp s`: arrangement W is arrangement S of the scores `-s`. -/
theorem weighted_inv_exp_eq_softRead [Nonempty M] (h : H → ℝ) (s : M → ℝ) (c : ℝ) (K : M → H → ℝ) :
    weighted (fun j => (h j : EReal)) (fun m => Ideal.div 1 (Ideal.exp (s m : EReal))) (fun m j => (K m j : EReal))
      = softRead (fun j => (h j : EReal)) (fun m => ((-(s m) : ℝ) : EReal)) (c : EReal) (fun m j => (K m j : EReal)) := by
  have e : ∀ m, Ideal.div 1 (Ideal.exp (s m : EReal)) = Ideal.exp ((-(s m) : ℝ) : EReal) := fun m => by
    rw [Ideal.exp_coe, Ideal.exp_coe, ← EReal.coe_one, div_coe_coe _ _ (Real.exp_ne_zero _), Real.exp_neg, one_div]
  simp only [e]
  exact weighted_exp_eq_softRead h (fun m => -(s m)) c K

/-- The running maximum of `n ≥ 1` reals from a start below `⊤`, joined once more with a value below `⊤`, is a real. -/
theorem max_fold_max_real {n : ℕ} (hn : 0 < n) (b b' : EReal) (hb : b ≠ ⊤) (hb' : b' ≠ ⊤) (f : Fin n → ℝ) :
    ∃ c : ℝ, max b' ((Finset.univ : Finset (Fin n)).fold max b fun k => (f k : EReal)) = (c : EReal) := by
  set v := max b' ((Finset.univ : Finset (Fin n)).fold max b fun k => (f k : EReal)) with hv
  have htop : v ≠ ⊤ := by
    apply ne_of_lt
    rw [hv, max_lt_iff, Finset.fold_max_lt]
    exact ⟨lt_top_iff_ne_top.mpr hb', lt_top_iff_ne_top.mpr hb, fun k _ => EReal.coe_lt_top _⟩
  have hbot : v ≠ ⊥ := by
    apply ne_of_gt
    rw [hv, lt_max_iff, Finset.lt_fold_max]
    exact Or.inr (Or.inr ⟨⟨0, hn⟩, Finset.mem_univ _, EReal.bot_lt_coe _⟩)
  exact ⟨v.toReal, (EReal.coe_toReal htop hbot).symm⟩

end RowSoftmax

end
-- ==== Proof.RowModel.lean ====
/-
  One row of the network, as both programs compute it, on the extended reals.

  A row `x` (360 features) goes through three dense layers with a relu, `layer a W b = max (a·W + b) 0`, to a
  hidden row `h` (512 entries). Against the memory bank `K` (512 rows of 512) the score of memory row `m` is
  `h · K m`. The three row results:
    • the positive read: `h j` times the softmax of the scores read against the bank, at column `j`;
    • the negative read: the same with the scores `h · (-1 · K m)`;
    • the prediction: `h · wd + bd`.
  One program normalises the weights `exp (score)` and `1 / exp (score)` once, outside the sum over the bank, and
  multiplies `wd` on the left; the other takes the softmax with the row maximum subtracted, each weight
  normalised, and multiplies `wd` on the right. The prediction rows agree by commutativity alone. The two reads
  agree at real entries (LibRowSoftmax), for any real value subtracted from the scores.
-/
import proofs.«128518_g72645076844940_cont_9to1_m_388_23_alg».proof.Proof.LibRowSoftmax
import Idealize.ShloMosaic.Lib.ValueIdx

noncomputable section

namespace Cert.RowModel

open Finset Idealize.ShloMosaic RowSoftmax

variable {A B D H M : Type*} [Fintype A] [Fintype D] [Fintype H] [Fintype M]

/-- One dense layer followed by a relu, on one row. -/
def layer (a : A → EReal) (W : A → B → EReal) (b : B → EReal) : B → EReal :=
  fun j => max ((∑ q, a q * W q j) + b j) 0

/-- The same over the reals. -/
def layerR (a : A → ℝ) (W : A → B → ℝ) (b : B → ℝ) : B → ℝ :=
  fun j => max ((∑ q, a q * W q j) + b j) 0

/-- At real entries a layer's row is the image of the real layer's row. -/
theorem layer_coe (a : A → ℝ) (W : A → B → ℝ) (b : B → ℝ) :
    layer (fun q => (a q : EReal)) (fun q j => (W q j : EReal)) (fun j => (b j : EReal))
      = fun j => ((layerR a W b j : ℝ) : EReal) := by
  funext j
  unfold layer layerR
  simp only [← EReal.coe_mul, ← coe_sum, ← EReal.coe_add]
  rw [← EReal.coe_zero]
  exact (EReal.coe_strictMono.monotone.map_max).symm

/-- The hidden row: three layers. -/
def hid (x : D → EReal) (W0 : D → H → EReal) (b0 : H → EReal) (W1 : H → H → EReal) (b1 : H → EReal)
    (W2 : H → H → EReal) (b2 : H → EReal) : H → EReal :=
  layer (layer (layer x W0 b0) W1 b1) W2 b2

def hidR (x : D → ℝ) (W0 : D → H → ℝ) (b0 : H → ℝ) (W1 : H → H → ℝ) (b1 : H → ℝ) (W2 : H → H → ℝ) (b2 : H → ℝ) :
    H → ℝ :=
  layerR (layerR (layerR x W0 b0) W1 b1) W2 b2

theorem hid_coe (x : D → ℝ) (W0 : D → H → ℝ) (b0 : H → ℝ) (W1 : H → H → ℝ) (b1 : H → ℝ) (W2 : H → H → ℝ) (b2 : H → ℝ) :
    hid (fun q => (x q : EReal)) (fun q j => (W0 q j : EReal)) (fun j => (b0 j : EReal)) (fun q j => (W1 q j : EReal))
        (fun j => (b1 j : EReal)) (fun q j => (W2 q j : EReal)) (fun j => (b2 j : EReal))
      = fun j => ((hidR x W0 b0 W1 b1 W2 b2 j : ℝ) : EReal) := by
  unfold hid hidR
  rw [layer_coe, layer_coe, layer_coe]

/-- The scores of a hidden row against the bank. -/
def score (h : H → EReal) (K : M → H → EReal) : M → EReal := fun m => ∑ j, h j * K m j

theorem score_coe (h : H → ℝ) (K : M → H → ℝ) :
    score (fun j => (h j : EReal)) (fun m j => (K m j : EReal)) = fun m => ((∑ j, h j * K m j : ℝ) : EReal) := by
  funext m
  unfold score
  simp only [← EReal.coe_mul, ← coe_sum]

theorem score_neg_coe (h : H → ℝ) (K : M → H → ℝ) :
    score (fun j => (h j : EReal)) (fun m j => (-1 : EReal) * (K m j : EReal))
      = fun m => ((-(∑ j, h j * K m j) : ℝ) : EReal) := by
  funext m
  unfold score
  have e : (-1 : EReal) = ((-1 : ℝ) : EReal) := by rw [EReal.coe_neg, EReal.coe_one]
  simp only [e, ← EReal.coe_mul, ← coe_sum]
  refine congrArg _ ?_
  rw [← Finset.sum_neg_distrib]
  exact Finset.sum_congr rfl fun j _ => by ring

/-! ## The three row results, in the first program's arrangement -/

def posW (h : H → EReal) (K : M → H → EReal) : H → EReal := weighted h (fun m => Ideal.exp (score h K m)) K
def negW (h : H → EReal) (K : M → H → EReal) : H → EReal :=
  weighted h (fun m => Ideal.div 1 (Ideal.exp (score h K m))) K
def predW (h wd : H → EReal) (bd : EReal) : EReal := (∑ j, wd j * h j) + bd

/-! ## and in the second's (`c` is what its softmax subtracts from the scores) -/

def posS (h : H → EReal) (K : M → H → EReal) (c : EReal) : H → EReal := softRead h (score h K) c K
def negS (h : H → EReal) (K : M → H → EReal) (c : EReal) : H → EReal :=
  softRead h (score h fun m j => (-1 : EReal) * K m j) c K
def predS (h wd : H → EReal) (bd : EReal) : EReal := (∑ j, h j * wd j) + bd

theorem predW_eq_predS (h wd : H → EReal) (bd : EReal) : predW h wd bd = predS h wd bd := by
  unfold predW predS
  exact congrArg (· + bd) (Finset.sum_congr rfl fun j _ => mul_comm _ _)

theorem posW_eq_posS [Nonempty M] (h : H → ℝ) (K : M → H → ℝ) (c : ℝ) :
    posW (fun j => (h j : EReal)) (fun m j => (K m j : EReal))
      = posS (fun j => (h j : EReal)) (fun m j => (K m j : EReal)) (c : EReal) := by
  unfold posW posS
  rw [score_coe]
  exact weighted_exp_eq_softRead h _ c K

theorem negW_eq_negS [Nonempty M] (h : H → ℝ) (K : M → H → ℝ) (c : ℝ) :
    negW (fun j => (h j : EReal)) (fun m j => (K m j : EReal))
      = negS (fun j => (h j : EReal)) (fun m j => (K m j : EReal)) (c : EReal) := by
  unfold negW negS
  rw [score_coe, score_neg_coe]
  exact weighted_inv_exp_eq_softRead h _ c K

/-! ## Arrays: rows, matrices and vectors read through their indices -/

open ValueIdx

/-- A rank-2 array as a matrix of its entries. -/
abbrev mat {a b : ℕ} (W : (⟨2, ![a, b]⟩ : Shape).Idx → EReal) : Fin a → Fin b → EReal := fun q j => W (ix2 q j)
/-- A rank-1 array as a vector of its entries. -/
abbrev vec {a : ℕ} (v : (⟨1, ![a]⟩ : Shape).Idx → EReal) : Fin a → EReal := fun j => v (ix1 j)
/-- Row `r` of a rank-2 array. -/
abbrev rowAt {a b : ℕ} (X : (⟨2, ![a, b]⟩ : Shape).Idx → EReal) (r : Fin a) : Fin b → EReal := fun d => X (ix2 r d)
/-- Column 0 of an [a, 1] array. -/
abbrev col0 {a : ℕ} (W : (⟨2, ![a, 1]⟩ : Shape).Idx → EReal) : Fin a → EReal := fun j => W (ix2 j (0 : Fin 1))

/-- The arrays of one problem: the batch `X` [16384, 360], the bank `K` [512, 512], three layers' weights and
    biases, the prediction head `Wd` [512, 1] and its bias `bd` [1]. -/
structure Args where
  X : (⟨2, ![16384, 360]⟩ : Shape).Idx → EReal
  K : (⟨2, ![512, 512]⟩ : Shape).Idx → EReal
  W0 : (⟨2, ![360, 512]⟩ : Shape).Idx → EReal
  b0 : (⟨1, ![512]⟩ : Shape).Idx → EReal
  W1 : (⟨2, ![512, 512]⟩ : Shape).Idx → EReal
  b1 : (⟨1, ![512]⟩ : Shape).Idx → EReal
  W2 : (⟨2, ![512, 512]⟩ : Shape).Idx → EReal
  b2 : (⟨1, ![512]⟩ : Shape).Idx → EReal
  Wd : (⟨2, ![512, 1]⟩ : Shape).Idx → EReal
  bd : (⟨1, ![1]⟩ : Shape).Idx → EReal

/-- The hidden row of batch row `r`. -/
def Args.hidAt (A : Args) (r : Fin 16384) : Fin 512 → EReal :=
  hid (rowAt A.X r) (mat A.W0) (vec A.b0) (mat A.W1) (vec A.b1) (mat A.W2) (vec A.b2)

/-- The three result arrays, in the first program's arrangement. -/
def Args.pos (A : Args) : (⟨2, ![16384, 512]⟩ : Shape).Idx → EReal := fun i => posW (A.hidAt (i 0)) (mat A.K) (i 1)
def Args.neg (A : Args) : (⟨2, ![16384, 512]⟩ : Shape).Idx → EReal := fun i => negW (A.hidAt (i 0)) (mat A.K) (i 1)
def Args.pred (A : Args) : (⟨2, ![16384, 1]⟩ : Shape).Idx → EReal :=
  fun i => predW (A.hidAt (i 0)) (col0 A.Wd) (A.bd (ix1 (0 : Fin 1)))

/-- Every entry of every array is the image of a real. -/
structure Args.Real (A : Args) : Prop where
  X : ∀ i, ∃ r : ℝ, A.X i = (r : EReal)
  K : ∀ i, ∃ r : ℝ, A.K i = (r : EReal)
  W0 : ∀ i, ∃ r : ℝ, A.W0 i = (r : EReal)
  b0 : ∀ i, ∃ r : ℝ, A.b0 i = (r : EReal)
  W1 : ∀ i, ∃ r : ℝ, A.W1 i = (r : EReal)
  b1 : ∀ i, ∃ r : ℝ, A.b1 i = (r : EReal)
  W2 : ∀ i, ∃ r : ℝ, A.W2 i = (r : EReal)
  b2 : ∀ i, ∃ r : ℝ, A.b2 i = (r : EReal)

/-- With real inputs the hidden rows are real. -/
theorem Args.hidAt_real (A : Args) (hA : A.Real) (r : Fin 16384) :
    ∃ h : Fin 512 → ℝ, A.hidAt r = fun j => ((h j : ℝ) : EReal) := by
  choose x hx using hA.X
  choose w0 hw0 using hA.W0
  choose c0 hc0 using hA.b0
  choose w1 hw1 using hA.W1
  choose c1 hc1 using hA.b1
  choose w2 hw2 using hA.W2
  choose c2 hc2 using hA.b2
  refine ⟨hidR (fun d => x (ix2 r d)) (fun q j => w0 (ix2 q j)) (fun j => c0 (ix1 j)) (fun q j => w1 (ix2 q j))
    (fun j => c1 (ix1 j)) (fun q j => w2 (ix2 q j)) (fun j => c2 (ix1 j)), ?_⟩
  unfold Args.hidAt
  have eX : rowAt A.X r = fun d => ((x (ix2 r d) : ℝ) : EReal) := funext fun _ => hx _
  have e0 : mat A.W0 = fun q j => ((w0 (ix2 q j) : ℝ) : EReal) := funext fun _ => funext fun _ => hw0 _
  have f0 : vec A.b0 = fun j => ((c0 (ix1 j) : ℝ) : EReal) := funext fun _ => hc0 _
  have e1 : mat A.W1 = fun q j => ((w1 (ix2 q j) : ℝ) : EReal) := funext fun _ => funext fun _ => hw1 _
  have f1 : vec A.b1 = fun j => ((c1 (ix1 j) : ℝ) : EReal) := funext fun _ => hc1 _
  have e2 : mat A.W2 = fun q j => ((w2 (ix2 q j) : ℝ) : EReal) := funext fun _ => funext fun _ => hw2 _
  have f2 : vec A.b2 = fun j => ((c2 (ix1 j) : ℝ) : EReal) := funext fun _ => hc2 _
  rw [eX, e0, f0, e1, f1, e2, f2]
  exact hid_coe _ _ _ _ _ _ _

/-- The bank as a real matrix. -/
theorem Args.K_real (A : Args) (hA : A.Real) : ∃ k : Fin 512 → Fin 512 → ℝ, mat A.K = fun m j => ((k m j : ℝ) : EReal) := by
  choose k hk using hA.K
  exact ⟨fun m j => k (ix2 m j), funext fun _ => funext fun _ => hk _⟩

end Cert.RowModel

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.KernelRows.lean ====
/-
  The first program (the fused kernel), one block of 1024 batch rows at a time, read row by row.

  A grid point loads a [360, 1024] block of the TRANSPOSED batch (column p of the block is batch row p of the
  block), the whole bank and all weights. Row p of its hidden block is the row model's hidden row of column p;
  the weights `t = exp (score)` and `1 / t` are summed along the lanes and kept as [1024, 1] columns, and the three
  stores are, at row p:
    • the positive read `posW`, the negative read `negW` (both [1024, 512] blocks);
    • the prediction `predW`, written as entry p of a [1, 1024] row.
  Each matrix product is a sum over its one contracted axis; the first layer contracts the block's axis 0 and
  the prediction contracts the hidden block's axis 1.
-/
import proofs.«128518_g72645076844940_cont_9to1_m_388_23_alg».proof.Proof.Gen.KernelIdeal.Skeleton
import proofs.«128518_g72645076844940_cont_9to1_m_388_23_alg».proof.Proof.RowModel
import proofs.«128518_g72645076844940_cont_9to1_m_388_23_alg».proof.Proof.LibKeepdims
import Idealize.ShloMosaic.Lib.ValueLayout
import Idealize.ShloMosaic.PureOps.Ideal.Laws
import Idealize.ShloMosaic.PureOps.IdealRules

noncomputable section

namespace Cert.KernelRows

open Cert.KernelIdeal Cert.KernelIdeal.Gen Idealize.ShloMosaic Idealize.ShloMosaic.ValueIdx Cert.RowModel RowSoftmax

theorem ofBits_one : Ideal.ofBits .f32 0x3F800000#32 = 1 := IdealRules.sign_bit.ideal_onePat .f32

/-! ## The three matrix products at an index -/

theorem mm_std_lhs0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm_std_lhs1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem mm_std_rhs0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem mm_std_rhs1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- [1024, 512] × [512, 512]: entry (p, j) sums over the shared axis. -/
theorem mm_std (l : FVec Ideal S1024x512 .f32) (r : FVec Ideal S512x512 .f32) (p : Fin 1024) (j : Fin 512) :
    matmul dot_S1024x512_S512x512_S1024x512_1_0_0_1_n_n none l r (constant S1024x512 .f32 0x00000000#32) (ix2 p j)
      = ∑ k : Fin 512, l (ix2 p k) * r (ix2 k j) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p j) ((contrEquiv1 dot_S1024x512_S512x512_S1024x512_1_0_0_1_n_n 512 rfl rfl).symm k) = ix2 p k :=
    funext fun a => Fin.ext (by
      match a with
      | ⟨0, _⟩ => exact mm_std_lhs0 _ _
      | ⟨1, _⟩ => exact (mm_std_lhs1 _ _).trans hk)
  have er : dot_S1024x512_S512x512_S1024x512_1_0_0_1_n_n.rhsIdx (ix2 p j) ((contrEquiv1 dot_S1024x512_S512x512_S1024x512_1_0_0_1_n_n 512 rfl rfl).symm k) = ix2 k j :=
    funext fun a => Fin.ext (by
      match a with
      | ⟨0, _⟩ => exact (mm_std_rhs0 _ _).trans hk
      | ⟨1, _⟩ => exact mm_std_rhs1 _ _)
  rw [el, er]

theorem mm_first_lhs0 (i : S1024x512.Idx) (q : dot_S360x1024_S360x512_S1024x512_0_0_1_1_n_n.contr.Idx) :
    (dot_S360x1024_S360x512_S1024x512_0_0_1_1_n_n.lhsIdx i q 0).val = (q ⟨0, by decide⟩).val :=
  dot_S360x1024_S360x512_S1024x512_0_0_1_1_n_n.lhsIdx_val_of_single rfl i q
theorem mm_first_lhs1 (i : S1024x512.Idx) (q : dot_S360x1024_S360x512_S1024x512_0_0_1_1_n_n.contr.Idx) :
    (dot_S360x1024_S360x512_S1024x512_0_0_1_1_n_n.lhsIdx i q 1).val = (i 0).val := by
  unfold DotDims.lhsIdx
  rw [dif_neg (show ¬(1 : Fin S360x1024.rank) ∈ dot_S360x1024_S360x512_S1024x512_0_0_1_1_n_n.lhsBatch by decide), dif_pos (show (1 : Fin S360x1024.rank) ∈ dot_S360x1024_S360x512_S1024x512_0_0_1_1_n_n.lhsNonContracting by decide)]
  rfl
theorem mm_first_rhs0 (i : S1024x512.Idx) (q : dot_S360x1024_S360x512_S1024x512_0_0_1_1_n_n.contr.Idx) :
    (dot_S360x1024_S360x512_S1024x512_0_0_1_1_n_n.rhsIdx i q 0).val = (q ⟨0, by decide⟩).val :=
  dot_S360x1024_S360x512_S1024x512_0_0_1_1_n_n.rhsIdx_val_of_single rfl i q
theorem mm_first_rhs1 (i : S1024x512.Idx) (q : dot_S360x1024_S360x512_S1024x512_0_0_1_1_n_n.contr.Idx) :
    (dot_S360x1024_S360x512_S1024x512_0_0_1_1_n_n.rhsIdx i q 1).val = (i 1).val := by
  unfold DotDims.rhsIdx
  rw [dif_neg (show ¬(1 : Fin S360x512.rank) ∈ dot_S360x1024_S360x512_S1024x512_0_0_1_1_n_n.rhsBatch by decide), dif_pos (show (1 : Fin S360x512.rank) ∈ dot_S360x1024_S360x512_S1024x512_0_0_1_1_n_n.rhsNonContracting by decide)]
  rfl

/-- [360, 1024]ᵀ × [360, 512]: both operands contract their axis 0; entry (p, j) sums over the 360 features. -/
theorem mm_first (l : FVec Ideal S360x1024 .f32) (r : FVec Ideal S360x512 .f32) (p : Fin 1024) (j : Fin 512) :
    matmul dot_S360x1024_S360x512_S1024x512_0_0_1_1_n_n none l r (constant S1024x512 .f32 0x00000000#32) (ix2 p j)
      = ∑ k : Fin 360, l (ix2 k p) * r (ix2 k j) := by
  simp only [matmul]
  rw [Ideal.matmul_constant_zero_apply, ← Equiv.sum_comp (contrEquiv1 dot_S360x1024_S360x512_S1024x512_0_0_1_1_n_n 360 rfl rfl).symm]
  refine Finset.sum_congr rfl fun k _ => ?_
  have hk := contrEquiv1_symm_val dot_S360x1024_S360x512_S1024x512_0_0_1_1_n_n 360 rfl rfl k
  have el : dot_S360x1024_S360x512_S1024x512_0_0_1_1_n_n.lhsIdx (ix2 p j) ((contrEquiv1 dot_S360x1024_S360x512_S1024x512_0_0_1_1_n_n 360 rfl rfl).symm k) = ix2 k p :=
    funext fun a => Fin.ext (by
      match a with
      | ⟨0, _⟩ => exact (mm_first_lhs0 _ _).trans hk
      | ⟨1, _⟩ => exact mm_first_lhs1 _ _)
  have er : dot_S360x1024_S360x512_S1024x512_0_0_1_1_n_n.rhsIdx (ix2 p j) ((contrEquiv1 dot_S360x1024_S360x512_S1024x512_0_0_1_1_n_n 360 rfl rfl).symm k) = ix2 k j :=
    funext fun a => Fin.ext (by
      match a with
      | ⟨0, _⟩ => exact (mm_first_rhs0 _ _).trans hk
      | ⟨1, _⟩ => exact mm_first_rhs1 _ _)
  rw [el, er]

theorem mm_head_lhs0 (i : S1x1024.Idx) (q : dot_S1x512_S1024x512_S1x1024_1_1_0_0_n_n.contr.Idx) :
    (dot_S1x512_S1024x512_S1x1024_1_1_0_0_n_n.lhsIdx i q 0).val = (i 0).val := by
  unfold DotDims.lhsIdx
  rw [dif_neg (show ¬(0 : Fin S1x512.rank) ∈ dot_S1x512_S1024x512_S1x1024_1_1_0_0_n_n.lhsBatch by decide), dif_pos (show (0 : Fin S1x512.rank) ∈ dot_S1x512_S1024x512_S1x1024_1_1_0_0_n_n.lhsNonContracting by decide)]
  rfl
theorem mm_head_lhs1 (i : S1x1024.Idx) (q : dot_S1x512_S1024x512_S1x1024_1_1_0_0_n_n.contr.Idx) :
    (dot_S1x512_S1024x512_S1x1024_1_1_0_0_n_n.lhsIdx i q 1).val = (q ⟨0, by decide⟩).val :=
  dot_S1x512_S1024x512_S1x1024_1_1_0_0_n_n.lhsIdx_val_of_single rfl i q
theorem mm_head_rhs0 (i : S1x1024.Idx) (q : dot_S1x512_S1024x512_S1x1024_1_1_0_0_n_n.contr.Idx) :
    (dot_S1x512_S1024x512_S1x1024_1_1_0_0_n_n.rhsIdx i q 0).val = (i 1).val := by
  unfold DotDims.rhsIdx
  rw [dif_neg (show ¬(0 : Fin S1024x512.rank) ∈ dot_S1x512_S1024x512_S1x1024_1_1_0_0_n_n.rhsBatch by decide), dif_pos (show (0 : Fin S1024x512.rank) ∈ dot_S1x512_S1024x512_S1x1024_1_1_0_0_n_n.rhsNonContracting by decide)]
  rfl
theorem mm_head_rhs1 (i : S1x1024.Idx) (q : dot_S1x512_S1024x512_S1x1024_1_1_0_0_n_n.contr.Idx) :
    (dot_S1x512_S1024x512_S1x1024_1_1_0_0_n_n.rhsIdx i q 1).val = (q ⟨0, by decide⟩).val :=
  dot_S1x512_S1024x512_S1x1024_1_1_0_0_n_n.rhsIdx_val_of_single rfl i q

/-- [1, 512] × [1024, 512]ᵀ: both operands contract their axis 1; entry (z, p) sums over the 512 hidden entries. -/
theorem mm_head (l : FVec Ideal S1x512 .f32) (r : FVec Ideal S1024x512 .f32) (z : Fin 1) (p : Fin 1024) :
    matmul dot_S1x512_S1024x512_S1x1024_1_1_0_0_n_n none l r (constant S1x1024 .f32 0x00000000#32) (ix2 z p)
      = ∑ k : Fin 512, l (ix2 z k) * r (ix2 p k) := by
  simp only [matmul]
  rw [Ideal.matmul_constant_zero_apply, ← Equiv.sum_comp (contrEquiv1 dot_S1x512_S1024x512_S1x1024_1_1_0_0_n_n 512 rfl rfl).symm]
  refine Finset.sum_congr rfl fun k _ => ?_
  have hk := contrEquiv1_symm_val dot_S1x512_S1024x512_S1x1024_1_1_0_0_n_n 512 rfl rfl k
  have el : dot_S1x512_S1024x512_S1x1024_1_1_0_0_n_n.lhsIdx (ix2 z p) ((contrEquiv1 dot_S1x512_S1024x512_S1x1024_1_1_0_0_n_n 512 rfl rfl).symm k) = ix2 z k :=
    funext fun a => Fin.ext (by
      match a with
      | ⟨0, _⟩ => exact mm_head_lhs0 _ _
      | ⟨1, _⟩ => exact (mm_head_lhs1 _ _).trans hk)
  have er : dot_S1x512_S1024x512_S1x1024_1_1_0_0_n_n.rhsIdx (ix2 z p) ((contrEquiv1 dot_S1x512_S1024x512_S1x1024_1_1_0_0_n_n 512 rfl rfl).symm k) = ix2 p k :=
    funext fun a => Fin.ext (by
      match a with
      | ⟨0, _⟩ => exact mm_head_rhs0 _ _
      | ⟨1, _⟩ => exact (mm_head_rhs1 _ _).trans hk)
  rw [el, er]

/-! ## One dense layer of the block -/

/-- A later layer on the block: row p of the result is the row model's layer of row p. -/
theorem layer_block (a : FVec Ideal S1024x512 .f32) (W : FVec Ideal S512x512 .f32) (b : FVec Ideal S512 .f32)
    (p : Fin 1024) (j : Fin 512) :
    maximumf (addf (matmul dot_S1024x512_S512x512_S1024x512_1_0_0_1_n_n none a W (constant S1024x512 .f32 0x00000000#32))
        (broadcastTo S1024x512 (shapeCast S1x512 b shapeCasts_S512_S1x512) broadcasts_S1x512_S1024x512))
      (broadcast S1024x512 (Scalar.ofBits .f32 0x00000000#32)) (ix2 p j)
      = layer (fun q => a (ix2 p q)) (mat W) (vec b) j := by
  rw [maximumf_apply, addf_apply, mm_std, broadcastTo_1b_ab_apply, shapeCast_a_1a_apply, broadcast_apply]
  show max ((∑ k : Fin 512, a (ix2 p k) * W (ix2 k j)) + b (ix1 j)) (Ideal.ofBits .f32 0x00000000#32) = _
  rw [Ideal.ofBits_zero_f32]
  rfl

/-- The first layer on the block, whose input is the transposed batch block: row p reads column p. -/
theorem layer_first (x : FVec Ideal S360x1024 .f32) (W : FVec Ideal S360x512 .f32) (b : FVec Ideal S512 .f32)
    (p : Fin 1024) (j : Fin 512) :
    maximumf (addf (matmul dot_S360x1024_S360x512_S1024x512_0_0_1_1_n_n none
          (shapeCast S360x1024 x shapeCasts_S360x1024_S360x1024) W (constant S1024x512 .f32 0x00000000#32))
        (broadcastTo S1024x512 (shapeCast S1x512 b shapeCasts_S512_S1x512) broadcasts_S1x512_S1024x512))
      (broadcast S1024x512 (Scalar.ofBits .f32 0x00000000#32)) (ix2 p j)
      = layer (fun d => x (ix2 d p)) (mat W) (vec b) j := by
  rw [maximumf_apply, addf_apply, mm_first, broadcastTo_1b_ab_apply, shapeCast_a_1a_apply, broadcast_apply, shapeCast_self]
  show max ((∑ k : Fin 360, x (ix2 k p) * W (ix2 k j)) + b (ix1 j)) (Ideal.ofBits .f32 0x00000000#32) = _
  rw [Ideal.ofBits_zero_f32]
  rfl

/-! ## The payloads at an index -/

variable (x0 : FVec Ideal S360x1024 .f32) (x1 : FVec Ideal S512x512 .f32) (x2 : FVec Ideal S360x512 .f32)
  (x3 : FVec Ideal S512 .f32) (x4 : FVec Ideal S512x512 .f32) (x5 : FVec Ideal S512 .f32) (x6 : FVec Ideal S512x512 .f32)
  (x7 : FVec Ideal S512 .f32)

/-- The hidden row of column p of the block. -/
abbrev hrow (p : Fin 1024) : Fin 512 → EReal :=
  hid (fun d => x0 (ix2 d p)) (mat x2) (vec x3) (mat x4) (vec x5) (mat x6) (vec x7)

theorem hidden_block (p : Fin 1024) (j : Fin 512) :
    k0_pay4 (F := Ideal) x0 x2 x3 x4 x5 x6 x7 (ix2 p j) = hrow x0 x2 x3 x4 x5 x6 x7 p j := by
  unfold k0_pay4
  rw [layer_block]
  simp only [layer_block, layer_first]
  rfl

theorem weights_block (p : Fin 1024) (m : Fin 512) :
    k0_pay5 (F := Ideal) x0 x2 x3 x4 x5 x6 x7 x1 (ix2 p m) = Ideal.exp (score (hrow x0 x2 x3 x4 x5 x6 x7 p) (mat x1) m) := by
  unfold k0_pay5
  show FloatOps.exp (matmul dot_S1024x512_S512x512_S1024x512_1_0_0_1_n_n none (k0_pay4 (F := Ideal) x0 x2 x3 x4 x5 x6 x7)
    (transpose S512x512 [1, 0] x1 transposes_S512x512_p1_0_S512x512) (constant S1024x512 .f32 0x00000000#32) (ix2 p m)) = _
  rw [mm_std, Ideal.exp_def]
  have e : ∀ k : Fin 512, transpose S512x512 [1, 0] x1 transposes_S512x512_p1_0_S512x512 (ix2 k m) = x1 (ix2 m k) :=
    fun k => transpose_ix2_apply x1 transposes_S512x512_p1_0_S512x512 k m
  simp only [e, hidden_block]
  rfl

theorem invWeights_block (p : Fin 1024) (m : Fin 512) :
    k0_pay6 (F := Ideal) x0 x2 x3 x4 x5 x6 x7 x1 (ix2 p m)
      = Ideal.div 1 (Ideal.exp (score (hrow x0 x2 x3 x4 x5 x6 x7 p) (mat x1) m)) := by
  unfold k0_pay6
  rw [divf_apply, broadcast_apply, weights_block]
  show Ideal.div (Ideal.ofBits .f32 0x3F800000#32) _ = _
  rw [ofBits_one]

theorem sumWeights_block (p : Fin 1024) (z : Fin 1) :
    k0_pay7 (F := Ideal) x0 x2 x3 x4 x5 x6 x7 x1 (ix2 p z)
      = ∑ m : Fin 512, Ideal.exp (score (hrow x0 x2 x3 x4 x5 x6 x7 p) (mat x1) m) := by
  unfold k0_pay7
  refine (Keepdims.shapeCast_a_a1_apply _ _ p z).trans ?_
  refine (Keepdims.laneSum_apply _ _ _ _ p).trans ?_
  exact Finset.sum_congr rfl fun m _ => weights_block x0 x1 x2 x3 x4 x5 x6 x7 p m

theorem sumInvWeights_block (p : Fin 1024) (z : Fin 1) :
    k0_pay8 (F := Ideal) x0 x2 x3 x4 x5 x6 x7 x1 (ix2 p z)
      = ∑ m : Fin 512, Ideal.div 1 (Ideal.exp (score (hrow x0 x2 x3 x4 x5 x6 x7 p) (mat x1) m)) := by
  unfold k0_pay8
  refine (Keepdims.shapeCast_a_a1_apply _ _ p z).trans ?_
  refine (Keepdims.laneSum_apply _ _ _ _ p).trans ?_
  exact Finset.sum_congr rfl fun m _ => invWeights_block x0 x1 x2 x3 x4 x5 x6 x7 p m

/-- A read's store, from a hidden block `h`, the bank, a block of weights `t` and the column of their row sums. -/
theorem read_store (h : FVec Ideal S1024x512 .f32) (K : FVec Ideal S512x512 .f32) (tw : FVec Ideal S1024x512 .f32)
    (s : FVec Ideal S1024x1 .f32) (p : Fin 1024) (j : Fin 512) :
    mulf (mulf h (broadcastTo S1024x512 (divf (broadcast S1024x1 (Scalar.ofBits .f32 0x3F800000#32)) s) broadcasts_S1024x1_S1024x512))
        (matmul dot_S1024x512_S512x512_S1024x512_1_0_0_1_n_n none tw K (constant S1024x512 .f32 0x00000000#32)) (ix2 p j)
      = (h (ix2 p j) * Ideal.div 1 (s (ix2 p (0 : Fin 1)))) * ∑ m : Fin 512, tw (ix2 p m) * K (ix2 m j) := by
  rw [mulf_apply, mulf_apply, mm_std, Keepdims.broadcastTo_a1_ab_apply, divf_apply, broadcast_apply]
  show (h (ix2 p j) * Ideal.div (Ideal.ofBits .f32 0x3F800000#32) _) * _ = _
  rw [ofBits_one]

/-- The positive read's block at (p, j). -/
theorem pos_block (p : Fin 1024) (j : Fin 512) :
    k0_pay1 (F := Ideal) (k0_pay4 (F := Ideal) x0 x2 x3 x4 x5 x6 x7) x1 (k0_pay5 (F := Ideal) x0 x2 x3 x4 x5 x6 x7 x1) (k0_pay7 (F := Ideal) x0 x2 x3 x4 x5 x6 x7 x1) (ix2 p j)
      = posW (hrow x0 x2 x3 x4 x5 x6 x7 p) (mat x1) j := by
  unfold k0_pay1
  rw [read_store]
  simp only [hidden_block, weights_block, sumWeights_block]
  rfl

/-- The negative read's block at (p, j). -/
theorem neg_block (p : Fin 1024) (j : Fin 512) :
    k0_pay2 (F := Ideal) (k0_pay4 (F := Ideal) x0 x2 x3 x4 x5 x6 x7) x1 (k0_pay6 (F := Ideal) x0 x2 x3 x4 x5 x6 x7 x1) (k0_pay8 (F := Ideal) x0 x2 x3 x4 x5 x6 x7 x1) (ix2 p j)
      = negW (hrow x0 x2 x3 x4 x5 x6 x7 p) (mat x1) j := by
  unfold k0_pay2
  rw [read_store]
  simp only [hidden_block, invWeights_block, sumInvWeights_block]
  rfl

/-- The prediction row's block at (z, p): the head row `wdt` against hidden row p, plus the bias. -/
theorem pred_block (wdt : FVec Ideal S1x512 .f32) (bd : FVec Ideal S1 .f32) (z : Fin 1) (p : Fin 1024) :
    k0_pay3 (F := Ideal) (k0_pay4 (F := Ideal) x0 x2 x3 x4 x5 x6 x7) wdt bd (ix2 z p)
      = predW (hrow x0 x2 x3 x4 x5 x6 x7 p) (fun j => wdt (ix2 (0 : Fin 1) j)) (bd (ix1 (0 : Fin 1))) := by
  unfold k0_pay3
  rw [addf_apply, mm_head, Keepdims.broadcastTo_a1_ab_apply, shapeCast_a_1a_apply, shapeCast_self]
  simp only [hidden_block]
  have hz : z = 0 := Subsingleton.elim _ _
  subst hz
  rfl

end Cert.KernelRows

end
-- ==== Proof.KernelArrays.lean ====
/-
  From blocks to arrays, with the host lines around the region.

  Before the region the host transposes the batch ([16384, 360] → [360, 16384]) and the head ([512, 1] → [1, 512]);
  the region runs 16 points; after it the host transposes the prediction row ([1, 16384] → [16384, 1]).
  Point t stages columns 1024·t … 1024·t + 1023 of the transposed batch and the whole of every other input, and
  writes back rows 1024·t … of the two reads and entries 1024·t … of the prediction row. So row p of point t's
  hidden block is the hidden row of batch row 1024·t + p, each write-back is the block of one whole-array function
  (`Args.pos`, `Args.neg`, the row form of `Args.pred`), the 16 blocks tile each array, and the arrays end
  holding those functions. The last host line turns the prediction row into the column `Args.pred`.
-/
import proofs.«128518_g72645076844940_cont_9to1_m_388_23_alg».proof.Proof.Gen.KernelIdeal.Frame
import proofs.«128518_g72645076844940_cont_9to1_m_388_23_alg».proof.Proof.KernelRows
import Idealize.ShloMosaic.Lib.Pipeline.Value
import Idealize.ShloMosaic.Lib.StableHlo.Run

set_option maxRecDepth 16384

noncomputable section

namespace Cert.KernelArrays

open Cert.KernelIdeal Cert.KernelIdeal.Gen Idealize.ShloMosaic Idealize.ShloMosaic.TcCoe Idealize.ShloMosaic.ValueIdx
open Idealize.SL.Sem Idealize.ShloMosaic.StableHlo Cert.RowModel
open Idealize.ShloMosaic.Pipeline (Dat)

variable (m : (ℓ : Loc nD τ sig) → Buf (Elt Ideal) ℓ) (ρ : Dev nD → PrngReg)

/-- The problem's arrays as the launch memory of core c holds them. -/
def argsOf (c : Dev nD) : Args where
  X := m ((c : Thread nD τ).loc main_arg0)
  K := m ((c : Thread nD τ).loc main_arg1)
  W0 := m ((c : Thread nD τ).loc main_arg2)
  b0 := m ((c : Thread nD τ).loc main_arg3)
  W1 := m ((c : Thread nD τ).loc main_arg4)
  b1 := m ((c : Thread nD τ).loc main_arg5)
  W2 := m ((c : Thread nD τ).loc main_arg6)
  b2 := m ((c : Thread nD τ).loc main_arg7)
  Wd := m ((c : Thread nD τ).loc main_arg8)
  bd := m ((c : Thread nD τ).loc main_arg9)

/-! ## The host lines before the region -/

/-- The region finds the batch transposed. -/
theorem V_xt (c : Dev nD) :
    (V m c main_call0_v0 : S360x16384.Idx → EReal)
      = transpose S360x16384 [1, 0] (m ((c : Thread nD τ).loc main_arg0)) transposes_S16384x360_S360x16384_1_0 := by
  show StableHlo.after hostOps0 (fun b => m (c, b)) (Proc.devRef .tc main_call0_v0) = _
  after_results
  rfl

/-- The region finds the head transposed. -/
theorem V_wdt (c : Dev nD) :
    (V m c main_call0_v1 : S1x512.Idx → EReal)
      = transpose S1x512 [1, 0] (m ((c : Thread nD τ).loc main_arg8)) transposes_S512x1_S1x512_1_0 := by
  show StableHlo.after hostOps0 (fun b => m (c, b)) (Proc.devRef .tc main_call0_v1) = _
  after_results
  rfl

/-! ## Where each window's block sits, decided over the grid -/

theorem idx0 : ∀ t : Fin cfg0.N, win0_0.index t (0 : Fin 2) = 0 ∧ win0_0.index t (1 : Fin 2) = t.val :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx9 : ∀ t : Fin cfg0.N, win0_9.index t (0 : Fin 1) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx10 : ∀ t : Fin cfg0.N, win0_10.index t (0 : Fin 2) = 0 ∧ win0_10.index t (1 : Fin 2) = t.val :=
  (by decide +kernel : ∀ t : Fin grid0.N, _)

theorem idx11 : ∀ t : Fin cfg0.N, win0_11.index t (0 : Fin 2) = t.val ∧ win0_11.index t (1 : Fin 2) = 0 :=
  (by decide +kernel : ∀ t : Fin grid0.N, _)

theorem idx12 : ∀ t : Fin cfg0.N, win0_12.index t (0 : Fin 2) = t.val ∧ win0_12.index t (1 : Fin 2) = 0 :=
  (by decide +kernel : ∀ t : Fin grid0.N, _)

theorem t_lt (t : Fin cfg0.N) : t.val < 16 := by have := t.isLt; have e : cfg0.N = 16 := N_0; omega

/-- Batch row 1024·t + p: row p of point t's block. -/
def rowOf (t : Fin cfg0.N) (p : Fin 1024) : Fin 16384 := ⟨t.val * 1024 + p.val, by have := t_lt t; have := p.isLt; omega⟩

/-! ## The input blocks -/

/-- Point t's block of the transposed batch at (d, p) is the batch at (1024·t + p, d). -/
theorem blk0_apply (c : Dev nD) (t : Fin cfg0.N) (d : Fin 360) (p : Fin 1024) :
    iblk m c 0 t (ix2 d p) = (argsOf m c).X (ix2 (rowOf t p) d) := by
  obtain ⟨e0, e1⟩ := idx0 t
  show V m c main_call0_v0 (((cfg0.win 0).blk t).view.emb (ix2 d p)) = _
  have he : ((cfg0.win 0).blk t).view.emb (ix2 d p) = ix2 d (rowOf t p) := by
    funext a; apply Fin.ext
    match a with
    | ⟨0, _⟩ => show win0_0.index t (0 : Fin 2) * 360 + 1 * d.val = d.val; omega
    | ⟨1, _⟩ => show win0_0.index t (1 : Fin 2) * 1024 + 1 * p.val = t.val * 1024 + p.val; omega
  rw [he, V_xt]
  exact transpose_ix2_apply _ _ d (rowOf t p)

/-- Window 1 stages its whole array at every point. -/
theorem blk1_apply (c : Dev nD) (t : Fin cfg0.N) (y : S512x512.Idx) : iblk m c 1 t y = (argsOf m c).K y := by
  obtain ⟨e0, e1⟩ := idx1 t
  show V m c main_arg1 (((cfg0.win 1).blk t).view.emb y) = _
  have he : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 512 + 1 * (y 1).val = (y 1).val; omega
  rw [he, V_main_arg1]
  rfl

/-- Window 2 stages its whole array at every point. -/
theorem blk2_apply (c : Dev nD) (t : Fin cfg0.N) (y : S360x512.Idx) : iblk m c 2 t y = (argsOf m c).W0 y := by
  obtain ⟨e0, e1⟩ := idx2 t
  show V m c main_arg2 (((cfg0.win 2).blk t).view.emb y) = _
  have he : ((cfg0.win 2).blk t).view.emb y = y := by
    funext a; apply Fin.ext
    match a with
    | ⟨0, _⟩ => show win0_2.index t (0 : Fin 2) * 360 + 1 * (y 0).val = (y 0).val; omega
    | ⟨1, _⟩ => show win0_2.index t (1 : Fin 2) * 512 + 1 * (y 1).val = (y 1).val; omega
  rw [he, V_main_arg2]
  rfl

/-- Window 3 stages its whole array at every point. -/
theorem blk3_apply (c : Dev nD) (t : Fin cfg0.N) (y : S512.Idx) : iblk m c 3 t y = (argsOf m c).b0 y := by
  have e0 := idx3 t
  show V m c main_arg3 (((cfg0.win 3).blk t).view.emb y) = _
  have he : ((cfg0.win 3).blk t).view.emb y = y := by
    funext a; apply Fin.ext
    match a with
    | ⟨0, _⟩ => show win0_3.index t (0 : Fin 1) * 512 + 1 * (y 0).val = (y 0).val; omega
  rw [he, V_main_arg3]
  rfl

/-- Window 4 stages its whole array at every point. -/
theorem blk4_apply (c : Dev nD) (t : Fin cfg0.N) (y : S512x512.Idx) : iblk m c 4 t y = (argsOf m c).W1 y := by
  obtain ⟨e0, e1⟩ := idx4 t
  show V m c main_arg4 (((cfg0.win 4).blk t).view.emb y) = _
  have he : ((cfg0.win 4).blk t).view.emb y = y := by
    funext a; apply Fin.ext
    match a with
    | ⟨0, _⟩ => show win0_4.index t (0 : Fin 2) * 512 + 1 * (y 0).val = (y 0).val; omega
    | ⟨1, _⟩ => show win0_4.index t (1 : Fin 2) * 512 + 1 * (y 1).val = (y 1).val; omega
  rw [he, V_main_arg4]
  rfl

/-- Window 5 stages its whole array at every point. -/
theorem blk5_apply (c : Dev nD) (t : Fin cfg0.N) (y : S512.Idx) : iblk m c 5 t y = (argsOf m c).b1 y := by
  have e0 := idx5 t
  show V m c main_arg5 (((cfg0.win 5).blk t).view.emb y) = _
  have he : ((cfg0.win 5).blk t).view.emb y = y := by
    funext a; apply Fin.ext
    match a with
    | ⟨0, _⟩ => show win0_5.index t (0 : Fin 1) * 512 + 1 * (y 0).val = (y 0).val; omega
  rw [he, V_main_arg5]
  rfl

/-- Window 6 stages its whole array at every point. -/
theorem blk6_apply (c : Dev nD) (t : Fin cfg0.N) (y : S512x512.Idx) : iblk m c 6 t y = (argsOf m c).W2 y := by
  obtain ⟨e0, e1⟩ := idx6 t
  show V m c main_arg6 (((cfg0.win 6).blk t).view.emb y) = _
  have he : ((cfg0.win 6).blk t).view.emb y = y := by
    funext a; apply Fin.ext
    match a with
    | ⟨0, _⟩ => show win0_6.index t (0 : Fin 2) * 512 + 1 * (y 0).val = (y 0).val; omega
    | ⟨1, _⟩ => show win0_6.index t (1 : Fin 2) * 512 + 1 * (y 1).val = (y 1).val; omega
  rw [he, V_main_arg6]
  rfl

/-- Window 7 stages its whole array at every point. -/
theorem blk7_apply (c : Dev nD) (t : Fin cfg0.N) (y : S512.Idx) : iblk m c 7 t y = (argsOf m c).b2 y := by
  have e0 := idx7 t
  show V m c main_arg7 (((cfg0.win 7).blk t).view.emb y) = _
  have he : ((cfg0.win 7).blk t).view.emb y = y := by
    funext a; apply Fin.ext
    match a with
    | ⟨0, _⟩ => show win0_7.index t (0 : Fin 1) * 512 + 1 * (y 0).val = (y 0).val; omega
  rw [he, V_main_arg7]
  rfl

/-- Window 9 stages its whole array at every point. -/
theorem blk9_apply (c : Dev nD) (t : Fin cfg0.N) (y : S1.Idx) : iblk m c 9 t y = (argsOf m c).bd y := by
  have e0 := idx9 t
  show V m c main_arg9 (((cfg0.win 9).blk t).view.emb y) = _
  have he : ((cfg0.win 9).blk t).view.emb y = y := by
    funext a; apply Fin.ext
    match a with
    | ⟨0, _⟩ => show win0_9.index t (0 : Fin 1) * 1 + 1 * (y 0).val = (y 0).val; omega
  rw [he, V_main_arg9]
  rfl

/-- Window 8 stages the whole transposed head: at (0, j) the head at (j, 0). -/
theorem blk8_apply (c : Dev nD) (t : Fin cfg0.N) (j : Fin 512) :
    iblk m c 8 t (ix2 (0 : Fin 1) j) = (argsOf m c).Wd (ix2 j (0 : Fin 1)) := by
  obtain ⟨e0, e1⟩ := idx8 t
  show V m c main_call0_v1 (((cfg0.win 8).blk t).view.emb (ix2 (0 : Fin 1) j)) = _
  have he : ((cfg0.win 8).blk t).view.emb (ix2 (0 : Fin 1) j) = ix2 (0 : Fin 1) j := by
    funext a; apply Fin.ext
    match a with
    | ⟨0, _⟩ => show win0_8.index t (0 : Fin 2) * 1 + 1 * 0 = 0; omega
    | ⟨1, _⟩ => show win0_8.index t (1 : Fin 2) * 512 + 1 * j.val = j.val; omega
  rw [he, V_wdt]
  exact transpose_ix2_apply _ _ (0 : Fin 1) j

/-- Row p of point t's hidden block is the hidden row of batch row 1024·t + p. -/
theorem hrow_blk (c : Dev nD) (t : Fin cfg0.N) (p : Fin 1024) :
    KernelRows.hrow (iblk m c 0 t) (iblk m c 2 t) (iblk m c 3 t) (iblk m c 4 t) (iblk m c 5 t) (iblk m c 6 t) (iblk m c 7 t) p
      = (argsOf m c).hidAt (rowOf t p) := by
  have e0 : (fun d : Fin 360 => iblk m c 0 t (ix2 d p)) = rowAt (argsOf m c).X (rowOf t p) :=
    funext fun d => blk0_apply m c t d p
  have e2 : mat (iblk m c 2 t) = mat (argsOf m c).W0 := funext fun q => funext fun j => blk2_apply m c t (ix2 q j)
  have e3 : vec (iblk m c 3 t) = vec (argsOf m c).b0 := funext fun j => blk3_apply m c t (ix1 j)
  have e4 : mat (iblk m c 4 t) = mat (argsOf m c).W1 := funext fun q => funext fun j => blk4_apply m c t (ix2 q j)
  have e5 : vec (iblk m c 5 t) = vec (argsOf m c).b1 := funext fun j => blk5_apply m c t (ix1 j)
  have e6 : mat (iblk m c 6 t) = mat (argsOf m c).W2 := funext fun q => funext fun j => blk6_apply m c t (ix2 q j)
  have e7 : vec (iblk m c 7 t) = vec (argsOf m c).b2 := funext fun j => blk7_apply m c t (ix1 j)
  show hid (fun d : Fin 360 => iblk m c 0 t (ix2 d p)) (mat (iblk m c 2 t)) (vec (iblk m c 3 t)) (mat (iblk m c 4 t))
      (vec (iblk m c 5 t)) (mat (iblk m c 6 t)) (vec (iblk m c 7 t))
    = hid (rowAt (argsOf m c).X (rowOf t p)) (mat (argsOf m c).W0) (vec (argsOf m c).b0) (mat (argsOf m c).W1)
      (vec (argsOf m c).b1) (mat (argsOf m c).W2) (vec (argsOf m c).b2)
  rw [e0, e2, e3, e4, e5, e6, e7]

theorem bank_blk (c : Dev nD) (t : Fin cfg0.N) : mat (iblk m c 1 t) = mat (argsOf m c).K :=
  funext fun q => funext fun j => blk1_apply m c t (ix2 q j)

theorem hz2 : (![0, 0] : Fin 2 → Nat) = fun _ => 0 := funext fun a => by fin_cases a <;> rfl
theorem hz1 : (![0] : Fin 1 → Nat) = fun _ => 0 := funext fun a => by fin_cases a <;> rfl

end Cert.KernelArrays

end
-- ==== Proof.KernelRun.lean ====
/-
  What the region writes back, that the write-backs tile each output, and the host line after the region.

  Each output window's block at point t is the block of one whole-array function: rows 1024·t … of `Args.pos` and
  `Args.neg`, and entries 1024·t … of the prediction as a [1, 16384] row. Index r of an output lies in the block
  of point r / 1024, so after the 16 points each array holds its function everywhere. The host line after the
  region transposes the row into the [16384, 1] column `Args.pred`.
-/
import proofs.«128518_g72645076844940_cont_9to1_m_388_23_alg».proof.Proof.KernelArrays

set_option maxRecDepth 16384

noncomputable section

namespace Cert.KernelRun

open Cert.KernelIdeal Cert.KernelIdeal.Gen Idealize.ShloMosaic Idealize.ShloMosaic.TcCoe Idealize.ShloMosaic.ValueIdx
open Idealize.SL.Sem Idealize.ShloMosaic.StableHlo Cert.RowModel Cert.KernelArrays
open Idealize.ShloMosaic.Pipeline (Dat)

variable (m : (ℓ : Loc nD τ sig) → Buf (Elt Ideal) ℓ) (ρ : Dev nD → PrngReg)

/-! ## The positive read (window 12) -/

/-- What point t writes back is block t of `Args.pos`. -/
theorem flushed12_eq (c : Dev nD) (t : Fin cfg0.N) :
    (dats m 0 c).flushed 12 t = ((cfg0.win 12).blk t).view.read (Elt Ideal) (argsOf m c).pos := by
  show (cfg0.win 12).cut (grid0.coords t) ((dats m 0 c).after 12 t) = _
  rw [after0_12]
  unfold out0_12
  rw [View.canon_unit_zero hz2]
  simp only [View.ld_unit_zero (S := S360x1024) hz2, View.ld_unit_zero (S := S512x512) hz2, View.ld_unit_zero (S := S360x512) hz2,
    View.ld_unit_zero (S := S512) hz1, View.ld_unit_zero (S := S1x512) hz2, View.ld_unit_zero (S := S1) hz1]
  funext y
  obtain ⟨p, j, rfl⟩ : ∃ (p : Fin 1024) (j : Fin 512), y = ix2 p j := ⟨y 0, y 1, eq_ix2 y⟩
  show k0_pay1 (F := Ideal) (k0_pay4 (iblk m c 0 t) (iblk m c 2 t) (iblk m c 3 t) (iblk m c 4 t) (iblk m c 5 t) (iblk m c 6 t) (iblk m c 7 t)) (iblk m c 1 t) (k0_pay5 (iblk m c 0 t) (iblk m c 2 t) (iblk m c 3 t) (iblk m c 4 t) (iblk m c 5 t) (iblk m c 6 t) (iblk m c 7 t) (iblk m c 1 t))
      (k0_pay7 (iblk m c 0 t) (iblk m c 2 t) (iblk m c 3 t) (iblk m c 4 t) (iblk m c 5 t) (iblk m c 6 t) (iblk m c 7 t) (iblk m c 1 t)) (ix2 p j)
    = (argsOf m c).pos (((cfg0.win 12).blk t).view.emb (ix2 p j))
  refine (KernelRows.pos_block (iblk m c 0 t) (iblk m c 1 t) (iblk m c 2 t) (iblk m c 3 t) (iblk m c 4 t) (iblk m c 5 t) (iblk m c 6 t) (iblk m c 7 t) p j).trans ?_
  rw [hrow_blk, bank_blk]
  obtain ⟨e0, e1⟩ := idx12 t
  have he : ((cfg0.win 12).blk t).view.emb (ix2 p j) = ix2 (rowOf t p) j := by
    funext a; apply Fin.ext
    match a with
    | ⟨0, _⟩ => show win0_12.index t (0 : Fin 2) * 1024 + 1 * p.val = t.val * 1024 + p.val; omega
    | ⟨1, _⟩ => show win0_12.index t (1 : Fin 2) * 512 + 1 * j.val = j.val; omega
  rw [he]
  rfl

/-- An index of the array is in point t's block iff each coordinate is in the block's range on its axis. -/
theorem mem_blk12 (t : Fin cfg0.N) (i : S16384x512.Idx) :
    i ∈ ((cfg0.win 12).blk t).view.set ↔ ∀ a : Fin 2, win0_12.index t a * S1024x512.size a ≤ (i a).val
      ∧ (i a).val < win0_12.index t a * S1024x512.size a + S1024x512.size a := by
  show i ∈ ((View.whole main_v0_2).slice (win0_12.rect t)).set ↔ _
  rw [View.set_slice_whole, Rect.mem_set_unit]
  exact Iff.rfl

/-- Row r lies in the block of point r / 1024: the 16 blocks tile the array. -/
theorem cover12 (i : S16384x512.Idx) :
    ∃ t : Fin cfg0.N, (cfg0.win 12).flush t = true ∧ i ∈ ((cfg0.win 12).blk t).view.set := by
  have h0 : (i 0).val < 16384 := idx2_lt0 i
  have h1 : (i 1).val < 512 := idx2_lt1 i
  have hN : cfg0.N = 16 := N_0
  refine ⟨⟨(i 0).val / 1024, by omega⟩, flush0_12 _, (mem_blk12 _ i).mpr fun a => ?_⟩
  obtain ⟨e0, e1⟩ := idx12 (⟨(i 0).val / 1024, by omega⟩ : Fin cfg0.N)
  match a with
  | ⟨0, _⟩ =>
    show win0_12.index _ (0 : Fin 2) * 1024 ≤ (i 0).val ∧ (i 0).val < win0_12.index _ (0 : Fin 2) * 1024 + 1024
    rw [e0]; show (i 0).val / 1024 * 1024 ≤ (i 0).val ∧ (i 0).val < (i 0).val / 1024 * 1024 + 1024; omega
  | ⟨1, _⟩ =>
    show win0_12.index _ (1 : Fin 2) * 512 ≤ (i 1).val ∧ (i 1).val < win0_12.index _ (1 : Fin 2) * 512 + 512
    rw [e1]; omega

/-- The array after the run. -/
theorem final12 (c : Dev nD) : (dats m 0 c).arrAt 12 cfg0.N = (argsOf m c).pos :=
  (dats m 0 c).arrAt_eq_of_cover 12 _ (fun t _ => flushed12_eq m c t) (cover12)

/-! ## The negative read (window 11) -/

/-- What point t writes back is block t of `Args.neg`. -/
theorem flushed11_eq (c : Dev nD) (t : Fin cfg0.N) :
    (dats m 0 c).flushed 11 t = ((cfg0.win 11).blk t).view.read (Elt Ideal) (argsOf m c).neg := by
  show (cfg0.win 11).cut (grid0.coords t) ((dats m 0 c).after 11 t) = _
  rw [after0_11]
  unfold out0_11
  rw [View.canon_unit_zero hz2]
  simp only [View.ld_unit_zero (S := S360x1024) hz2, View.ld_unit_zero (S := S512x512) hz2, View.ld_unit_zero (S := S360x512) hz2,
    View.ld_unit_zero (S := S512) hz1, View.ld_unit_zero (S := S1x512) hz2, View.ld_unit_zero (S := S1) hz1]
  funext y
  obtain ⟨p, j, rfl⟩ : ∃ (p : Fin 1024) (j : Fin 512), y = ix2 p j := ⟨y 0, y 1, eq_ix2 y⟩
  show k0_pay2 (F := Ideal) (k0_pay4 (iblk m c 0 t) (iblk m c 2 t) (iblk m c 3 t) (iblk m c 4 t) (iblk m c 5 t) (iblk m c 6 t) (iblk m c 7 t)) (iblk m c 1 t) (k0_pay6 (iblk m c 0 t) (iblk m c 2 t) (iblk m c 3 t) (iblk m c 4 t) (iblk m c 5 t) (iblk m c 6 t) (iblk m c 7 t) (iblk m c 1 t))
      (k0_pay8 (iblk m c 0 t) (iblk m c 2 t) (iblk m c 3 t) (iblk m c 4 t) (iblk m c 5 t) (iblk m c 6 t) (iblk m c 7 t) (iblk m c 1 t)) (ix2 p j)
    = (argsOf m c).neg (((cfg0.win 11).blk t).view.emb (ix2 p j))
  refine (KernelRows.neg_block (iblk m c 0 t) (iblk m c 1 t) (iblk m c 2 t) (iblk m c 3 t) (iblk m c 4 t) (iblk m c 5 t) (iblk m c 6 t) (iblk m c 7 t) p j).trans ?_
  rw [hrow_blk, bank_blk]
  obtain ⟨e0, e1⟩ := idx11 t
  have he : ((cfg0.win 11).blk t).view.emb (ix2 p j) = ix2 (rowOf t p) j := by
    funext a; apply Fin.ext
    match a with
    | ⟨0, _⟩ => show win0_11.index t (0 : Fin 2) * 1024 + 1 * p.val = t.val * 1024 + p.val; omega
    | ⟨1, _⟩ => show win0_11.index t (1 : Fin 2) * 512 + 1 * j.val = j.val; omega
  rw [he]
  rfl

/-- An index of the array is in point t's block iff each coordinate is in the block's range on its axis. -/
theorem mem_blk11 (t : Fin cfg0.N) (i : S16384x512.Idx) :
    i ∈ ((cfg0.win 11).blk t).view.set ↔ ∀ a : Fin 2, win0_11.index t a * S1024x512.size a ≤ (i a).val
      ∧ (i a).val < win0_11.index t a * S1024x512.size a + S1024x512.size a := by
  show i ∈ ((View.whole main_v0_1).slice (win0_11.rect t)).set ↔ _
  rw [View.set_slice_whole, Rect.mem_set_unit]
  exact Iff.rfl

/-- Row r lies in the block of point r / 1024: the 16 blocks tile the array. -/
theorem cover11 (i : S16384x512.Idx) :
    ∃ t : Fin cfg0.N, (cfg0.win 11).flush t = true ∧ i ∈ ((cfg0.win 11).blk t).view.set := by
  have h0 : (i 0).val < 16384 := idx2_lt0 i
  have h1 : (i 1).val < 512 := idx2_lt1 i
  have hN : cfg0.N = 16 := N_0
  refine ⟨⟨(i 0).val / 1024, by omega⟩, flush0_11 _, (mem_blk11 _ i).mpr fun a => ?_⟩
  obtain ⟨e0, e1⟩ := idx11 (⟨(i 0).val / 1024, by omega⟩ : Fin cfg0.N)
  match a with
  | ⟨0, _⟩ =>
    show win0_11.index _ (0 : Fin 2) * 1024 ≤ (i 0).val ∧ (i 0).val < win0_11.index _ (0 : Fin 2) * 1024 + 1024
    rw [e0]; show (i 0).val / 1024 * 1024 ≤ (i 0).val ∧ (i 0).val < (i 0).val / 1024 * 1024 + 1024; omega
  | ⟨1, _⟩ =>
    show win0_11.index _ (1 : Fin 2) * 512 ≤ (i 1).val ∧ (i 1).val < win0_11.index _ (1 : Fin 2) * 512 + 512
    rw [e1]; omega

/-- The array after the run. -/
theorem final11 (c : Dev nD) : (dats m 0 c).arrAt 11 cfg0.N = (argsOf m c).neg :=
  (dats m 0 c).arrAt_eq_of_cover 11 _ (fun t _ => flushed11_eq m c t) (cover11)

/-! ## The prediction row (window 10) -/

/-- The prediction as the region holds it: a [1, 16384] row, entry r the prediction of batch row r. -/
def predRow (c : Dev nD) : S1x16384.Idx → EReal := fun i => (argsOf m c).pred (ix2 (i 1) (0 : Fin 1))

theorem flushed10_eq (c : Dev nD) (t : Fin cfg0.N) :
    (dats m 0 c).flushed 10 t = ((cfg0.win 10).blk t).view.read (Elt Ideal) (predRow m c) := by
  show (cfg0.win 10).cut (grid0.coords t) ((dats m 0 c).after 10 t) = _
  rw [after0_10]
  unfold out0_10
  rw [View.canon_unit_zero hz2]
  simp only [View.ld_unit_zero (S := S360x1024) hz2, View.ld_unit_zero (S := S512x512) hz2, View.ld_unit_zero (S := S360x512) hz2,
    View.ld_unit_zero (S := S512) hz1, View.ld_unit_zero (S := S1x512) hz2, View.ld_unit_zero (S := S1) hz1]
  funext y
  obtain ⟨z, p, rfl⟩ : ∃ (z : Fin 1) (p : Fin 1024), y = ix2 z p := ⟨y 0, y 1, eq_ix2 y⟩
  show k0_pay3 (F := Ideal) (k0_pay4 (iblk m c 0 t) (iblk m c 2 t) (iblk m c 3 t) (iblk m c 4 t) (iblk m c 5 t) (iblk m c 6 t) (iblk m c 7 t)) (iblk m c 8 t) (iblk m c 9 t) (ix2 z p)
    = predRow m c (((cfg0.win 10).blk t).view.emb (ix2 z p))
  refine (KernelRows.pred_block (iblk m c 0 t) (iblk m c 2 t) (iblk m c 3 t) (iblk m c 4 t) (iblk m c 5 t) (iblk m c 6 t) (iblk m c 7 t) (iblk m c 8 t) (iblk m c 9 t) z p).trans ?_
  rw [hrow_blk]
  have e8 : (fun j : Fin 512 => iblk m c 8 t (ix2 (0 : Fin 1) j)) = col0 (argsOf m c).Wd := funext fun j => blk8_apply m c t j
  rw [e8, blk9_apply]
  obtain ⟨e0, e1⟩ := idx10 t
  have he : ((cfg0.win 10).blk t).view.emb (ix2 z p) = ix2 z (rowOf t p) := by
    funext a; apply Fin.ext
    match a with
    | ⟨0, _⟩ => show win0_10.index t (0 : Fin 2) * 1 + 1 * z.val = z.val; omega
    | ⟨1, _⟩ => show win0_10.index t (1 : Fin 2) * 1024 + 1 * p.val = t.val * 1024 + p.val; omega
  rw [he]
  rfl

theorem mem_blk10 (t : Fin cfg0.N) (i : S1x16384.Idx) :
    i ∈ ((cfg0.win 10).blk t).view.set ↔ ∀ a : Fin 2, win0_10.index t a * S1x1024.size a ≤ (i a).val
      ∧ (i a).val < win0_10.index t a * S1x1024.size a + S1x1024.size a := by
  show i ∈ ((View.whole main_call0_v2_0).slice (win0_10.rect t)).set ↔ _
  rw [View.set_slice_whole, Rect.mem_set_unit]
  exact Iff.rfl

theorem cover10 (i : S1x16384.Idx) :
    ∃ t : Fin cfg0.N, (cfg0.win 10).flush t = true ∧ i ∈ ((cfg0.win 10).blk t).view.set := by
  have h0 : (i 0).val < 1 := idx2_lt0 i
  have h1 : (i 1).val < 16384 := idx2_lt1 i
  have hN : cfg0.N = 16 := N_0
  refine ⟨⟨(i 1).val / 1024, by omega⟩, flush0_10 _, (mem_blk10 _ i).mpr fun a => ?_⟩
  obtain ⟨e0, e1⟩ := idx10 (⟨(i 1).val / 1024, by omega⟩ : Fin cfg0.N)
  match a with
  | ⟨0, _⟩ =>
    show win0_10.index _ (0 : Fin 2) * 1 ≤ (i 0).val ∧ (i 0).val < win0_10.index _ (0 : Fin 2) * 1 + 1
    rw [e0]; omega
  | ⟨1, _⟩ =>
    show win0_10.index _ (1 : Fin 2) * 1024 ≤ (i 1).val ∧ (i 1).val < win0_10.index _ (1 : Fin 2) * 1024 + 1024
    rw [e1]; show (i 1).val / 1024 * 1024 ≤ (i 1).val ∧ (i 1).val < (i 1).val / 1024 * 1024 + 1024; omega

theorem final10 (c : Dev nD) : (dats m 0 c).arrAt 10 cfg0.N = predRow m c :=
  (dats m 0 c).arrAt_eq_of_cover 10 _ (fun t _ => flushed10_eq m c t) (cover10)

end Cert.KernelRun

end
-- ==== Proof.KernelValue.lean ====
/-
  The first program's run, with every result named.

  After the region the host transposes the [1, 16384] prediction row into the [16384, 1] column, so the program
  ends with the column `Args.pred`, the two reads `Args.neg` and `Args.pos` as the region left them, and the bank
  (its fourth result) and every other argument unchanged.
-/
import proofs.«128518_g72645076844940_cont_9to1_m_388_23_alg».proof.Proof.KernelRun

set_option maxRecDepth 16384

noncomputable section

namespace Cert.KernelValue

open Cert.KernelIdeal Cert.KernelIdeal.Gen Idealize.ShloMosaic Idealize.ShloMosaic.TcCoe Idealize.ShloMosaic.ValueIdx
open Idealize.SL.Sem Idealize.ShloMosaic.StableHlo Cert.RowModel Cert.KernelArrays Cert.KernelRun
open Idealize.ShloMosaic.Pipeline (Dat)

variable (m : (ℓ : Loc nD τ sig) → Buf (Elt Ideal) ℓ) (ρ : Dev nD → PrngReg)

/-- The prediction row transposed is the prediction column. -/
theorem transpose_predRow (c : Dev nD) :
    transpose S16384x1 [1, 0] (predRow m c) transposes_S1x16384_S16384x1_1_0 = (argsOf m c).pred := by
  funext i
  obtain ⟨r, z, rfl⟩ : ∃ (r : Fin 16384) (z : Fin 1), i = ix2 r z := ⟨i 0, i 1, eq_ix2 i⟩
  rw [transpose_ix2_apply]
  obtain rfl : z = 0 := Subsingleton.elim _ _
  rfl

/-- The host line after the region leaves the prediction column in the program's first result. -/
theorem tail_pred (c : Dev nD) :
    Pipeline.afterTail₀ cfgs (dats m) 0 (V0 m) [hostOps1] c main_v0_0 = (argsOf m c).pred := by
  have hw : Pipeline.withArrays (cfgs 0).spec c (V0 m c) (fun w => (dats m 0 c).arrAt w (cfgs 0).N)
      (Proc.devRef .tc (Pipeline.arrRef spec0 10)) = predRow m c :=
    (Pipeline.withArrays_arr spec0 launch0.win.arr_inj c _ _ 10).trans (final10 m c)
  unfold Pipeline.afterTail₀
  show StableHlo.after hostOps1 _ (Proc.devRef .tc main_v0_0) = _
  after_results
  show transpose S16384x1 [1, 0] (Pipeline.withArrays (cfgs 0).spec c (V0 m c) (fun w => (dats m 0 c).arrAt w (cfgs 0).N)
      (Proc.devRef .tc (Pipeline.arrRef spec0 10))) transposes_S1x16384_S16384x1_1_0 = _
  rw [hw]
  exact transpose_predRow m c

/-- Every weakly fair execution of the first program terminates with the three computed results at the row
    model's arrays of the launch memory, and the arguments (the bank among them) unchanged. -/
theorem run : θ_run defs (onTc (τ := τ) (main (F := Ideal))) ⟨m, fun _ => 0, ρ⟩ fun r => ∀ c : Dev nD,
      r.2.mem ((c.tc : Thread nD τ).loc main_v0_0) = (argsOf m c).pred
      ∧ r.2.mem ((c.tc : Thread nD τ).loc main_v0_1) = (argsOf m c).neg
      ∧ r.2.mem ((c.tc : Thread nD τ).loc main_v0_2) = (argsOf m c).pos
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨
      ((h c).2 main_v0_0 (Pipeline.mem_restRefs_of main_v0_0 (by decide) (by decide))).trans (tail_pred m c),
      ((h c).1 11).trans (final11 m c),
      ((h c).1 12).trans (final12 m c),
      ((h c).1 1).trans (((dats m 0 c).arrAt_in 1 rfl _).trans ((A_eq m c 1).trans (V_main_arg1 m c))),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c)))⟩)
    (run_main m ρ)

end Cert.KernelValue

end
-- ==== Proof.RefRows.lean ====
/-
  The second program (the plain jnp one), read row by row.

  Its hidden array at (r, j) is the row model's hidden row of batch row r at j; its score array at (r, m) is that
  row's score against memory row m, and the negated-bank scores likewise. Each softmax subtracts the row's
  maximum — the running maximum of the row's 512 scores from −∞, joined once more with −∞ — which is a real
  whenever the scores are. The two reads are then the row model's `posS` / `negS` at that maximum, and the
  prediction is `predS`.
-/
import proofs.«128518_g72645076844940_cont_9to1_m_388_23_alg».proof.Proof.Gen.ReferenceIdeal.Read
import proofs.«128518_g72645076844940_cont_9to1_m_388_23_alg».proof.Proof.RowModel
import Idealize.ShloMosaic.PureOps.IdealRules

noncomputable section

namespace Cert.RefRows

open Cert.ReferenceIdeal Cert.ReferenceIdeal.Facts₀ Cert.ReferenceIdeal.Read Idealize.ShloMosaic Idealize.ShloMosaic.ValueIdx Cert.RowModel RowSoftmax

/-- Two rank-2 indices with the same coordinates are equal. -/
macro "idx2" : tactic => `(tactic| (funext a; apply Fin.ext; match a with | ⟨0, _⟩ => rfl | ⟨1, _⟩ => rfl))
macro "idx1" : tactic => `(tactic| (funext a; apply Fin.ext; match a with | ⟨0, _⟩ => rfl))

variable (x0 : (⟨S16384x360, .f32⟩ : BufTy).Contents (Elt Ideal)) (x1 : (⟨S512x512, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal))

/-! ## The hidden rows -/

theorem layer1 (r : Fin 16384) (j : Fin 512) :
    val_main_v4 (F := Ideal) x0 x2 x3 (ix2 r j) = layer (rowAt x0 r) (mat x2) (vec x3) j := by
  rw [val_main_v4_apply, val_main_v3_apply, val_main_v0_apply, val_main_v2_apply, val_main_v1_apply,
    val_main_call0_v0_apply, val_main_call0_cst_apply]
  have e1 : ∀ k, lidx_main_v0 (ix2 r j) k = ix2 r k := fun k => by idx2
  have e2 : ∀ k, ridx_main_v0 (ix2 r j) k = ix2 k j := fun k => by idx2
  have e3 : idx_main_v1 (idx_main_v2 (ix2 r j)) = ix1 j := by idx1
  simp only [e1, e2, e3]
  show max ((∑ k : Fin 360, x0 (ix2 r k) * x2 (ix2 k j)) + x3 (ix1 j)) (Ideal.ofBits .f32 0x00000000#32) = _
  rw [Ideal.ofBits_zero_f32]
  rfl

theorem layer2 (r : Fin 16384) (j : Fin 512) :
    val_main_v9 (F := Ideal) x0 x2 x3 x4 x5 (ix2 r j)
      = layer (fun q => val_main_v4 (F := Ideal) x0 x2 x3 (ix2 r q)) (mat x4) (vec x5) j := by
  rw [val_main_v9_apply, val_main_v8_apply, val_main_v5_apply, val_main_v7_apply, val_main_v6_apply,
    val_main_call1_v0_apply, val_main_call1_cst_apply]
  have e1 : ∀ k, lidx_main_v5 (ix2 r j) k = ix2 r k := fun k => by idx2
  have e2 : ∀ k, ridx_main_v5 (ix2 r j) k = ix2 k j := fun k => by idx2
  have e3 : idx_main_v6 (idx_main_v7 (ix2 r j)) = ix1 j := by idx1
  simp only [e1, e2, e3]
  show max ((∑ k : Fin 512, val_main_v4 (F := Ideal) x0 x2 x3 (ix2 r k) * x4 (ix2 k j)) + x5 (ix1 j))
    (Ideal.ofBits .f32 0x00000000#32) = _
  rw [Ideal.ofBits_zero_f32]
  rfl

theorem layer3 (r : Fin 16384) (j : Fin 512) :
    val_main_v14 (F := Ideal) x0 x2 x3 x4 x5 x6 x7 (ix2 r j)
      = layer (fun q => val_main_v9 (F := Ideal) x0 x2 x3 x4 x5 (ix2 r q)) (mat x6) (vec x7) j := by
  rw [val_main_v14_apply, val_main_v13_apply, val_main_v10_apply, val_main_v12_apply, val_main_v11_apply,
    val_main_call2_v0_apply, val_main_call2_cst_apply]
  have e1 : ∀ k, lidx_main_v10 (ix2 r j) k = ix2 r k := fun k => by idx2
  have e2 : ∀ k, ridx_main_v10 (ix2 r j) k = ix2 k j := fun k => by idx2
  have e3 : idx_main_v11 (idx_main_v12 (ix2 r j)) = ix1 j := by idx1
  simp only [e1, e2, e3]
  show max ((∑ k : Fin 512, val_main_v9 (F := Ideal) x0 x2 x3 x4 x5 (ix2 r k) * x6 (ix2 k j)) + x7 (ix1 j))
    (Ideal.ofBits .f32 0x00000000#32) = _
  rw [Ideal.ofBits_zero_f32]
  rfl

/-- The hidden array at (r, j) is the hidden row of batch row r at j. -/
theorem hidden (r : Fin 16384) (j : Fin 512) :
    val_main_v14 (F := Ideal) x0 x2 x3 x4 x5 x6 x7 (ix2 r j)
      = hid (rowAt x0 r) (mat x2) (vec x3) (mat x4) (vec x5) (mat x6) (vec x7) j := by
  rw [layer3]
  simp only [layer2, layer1]
  rfl

/-- The hidden row of batch row r, as this program holds it. -/
abbrev hrow (r : Fin 16384) : Fin 512 → EReal :=
  hid (rowAt x0 r) (mat x2) (vec x3) (mat x4) (vec x5) (mat x6) (vec x7)

/-! ## The scores -/

theorem scores (r : Fin 16384) (m : Fin 512) :
    val_main_v16 (F := Ideal) x0 x1 x2 x3 x4 x5 x6 x7 (ix2 r m) = score (hrow x0 x2 x3 x4 x5 x6 x7 r) (mat x1) m := by
  rw [val_main_v16_apply]
  have e1 : ∀ k, lidx_main_v16 (ix2 r m) k = ix2 r k := fun k => by idx2
  have e2 : ∀ k, idx_main_v15 (ridx_main_v16 (ix2 r m) k) = ix2 m k := fun k => by idx2
  simp only [val_main_v15_apply, e1, e2, hidden]
  rfl

theorem ofBits_neg_one : Ideal.ofBits .f32 0xBF800000#32 = -1 := IdealRules.sign_bit.ideal_negOnePat .f32

theorem scoresNeg (r : Fin 16384) (m : Fin 512) :
    val_main_v44 (F := Ideal) x0 x1 x2 x3 x4 x5 x6 x7 (ix2 r m)
      = score (hrow x0 x2 x3 x4 x5 x6 x7 r) (fun m j => (-1 : EReal) * mat x1 m j) m := by
  rw [val_main_v44_apply]
  have e1 : ∀ k, lidx_main_v44 (ix2 r m) k = ix2 r k := fun k => by idx2
  have e2 : ∀ k, idx_main_v43 (ridx_main_v44 (ix2 r m) k) = ix2 m k := fun k => by idx2
  simp only [val_main_v43_apply, val_main_v42_apply, val_main_v41_apply, val_main_cst_5_apply, e1, e2, hidden]
  show (∑ k : Fin 512, hrow x0 x2 x3 x4 x5 x6 x7 r k * (Ideal.ofBits .f32 0xBF800000#32 * x1 (ix2 m k))) = _
  rw [ofBits_neg_one]
  rfl

/-! ## The row maxima the two softmaxes subtract -/

theorem ofBits_neg_inf : Ideal.ofBits .f32 0xFF800000#32 = ⊥ := by simp [Ideal.ofBits, Ideal.ieee]

/-- The index of a [16384, 512] array over r of the reduced [16384] with column k put back is (r, k). -/
theorem lift_col (h : S16384x512.Reduces [1] S16384) (r : Fin 16384) (k : Fin (S16384x512.size 1)) :
    h.lift (ix1 r) k = ix2 r (⟨k.val, k.isLt⟩ : Fin 512) := by
  funext c; apply Fin.ext
  fin_cases c <;> rfl

/-- A row's maximum as the program takes it is a real when the row's entries are. -/
theorem rowMax_real (s : S16384x512.Idx → EReal) (init : S_.Idx → EReal) (b' : EReal) (hinit : ∀ i, init i = ⊥)
    (hb' : b' = ⊥) (r : Fin 16384) (f : Fin 512 → ℝ) (hs : ∀ m, s (ix2 r m) = (f m : EReal)) :
    ∃ c : ℝ, max b' (Host.reduce (FloatOps.maximumf (F := Ideal) (φ := .f32)) s init reducesTo_S16384x512_S16384_d1 h_S_ (ix1 r))
      = (c : EReal) := by
  have hR : S16384x512.Reduces [1] S16384 := by decide
  have key := Host.reduce_eq_fold_single (FloatOps.maximumf (F := Ideal) (φ := .f32)) s init
    reducesTo_S16384x512_S16384_d1 hR h_S_ (ix1 r)
  rw [key, hinit, hb']
  have e : (s ∘ hR.lift (ix1 r)) = fun k : Fin 512 => (f k : EReal) := by
    funext k
    show s (hR.lift (ix1 r) k) = _
    rw [lift_col hR r k]
    exact hs _
  rw [e]
  exact max_fold_max_real (n := 512) (by decide) ⊥ ⊥ bot_ne_top bot_ne_top f

/-- What the positive read's softmax subtracts on row r. -/
abbrev mxPos (r : Fin 16384) : EReal := val_main_v30 (F := Ideal) x0 x1 x2 x3 x4 x5 x6 x7 (ix1 r)
/-- What the negative read's softmax subtracts on row r. -/
abbrev mxNeg (r : Fin 16384) : EReal := val_main_v58 (F := Ideal) x0 x1 x2 x3 x4 x5 x6 x7 (ix1 r)

theorem mxPos_real (r : Fin 16384) (f : Fin 512 → ℝ)
    (hs : ∀ m, val_main_v16 (F := Ideal) x0 x1 x2 x3 x4 x5 x6 x7 (ix2 r m) = (f m : EReal)) :
    ∃ c : ℝ, mxPos x0 x1 x2 x3 x4 x5 x6 x7 r = (c : EReal) := by
  unfold mxPos
  rw [val_main_v30_apply, val_main_v29_apply, val_main_cst_3_apply]
  unfold val_main_v28
  exact rowMax_real _ _ _ (fun _ => ofBits_neg_inf) ofBits_neg_inf r f hs

theorem mxNeg_real (r : Fin 16384) (f : Fin 512 → ℝ)
    (hs : ∀ m, val_main_v44 (F := Ideal) x0 x1 x2 x3 x4 x5 x6 x7 (ix2 r m) = (f m : EReal)) :
    ∃ c : ℝ, mxNeg x0 x1 x2 x3 x4 x5 x6 x7 r = (c : EReal) := by
  unfold mxNeg
  rw [val_main_v58_apply, val_main_v57_apply, val_main_cst_10_apply]
  unfold val_main_v56
  exact rowMax_real _ _ _ (fun _ => ofBits_neg_inf) ofBits_neg_inf r f hs

end Cert.RefRows

end
-- ==== Proof.RefReads.lean ====
/-
  The second program's three results, entry by entry, and their agreement with the first arrangement.

  At (r, j) the positive read is the hidden row's entry times the sum over the bank of the normalised shifted
  weights — the row model's `posS` at the row's maximum; the negative read is `negS` at the maximum of the
  negated-bank scores; the prediction at (r, 0) is `predS`. With every input entry real, the hidden rows, the
  scores and so both maxima are real, and the three arrays are the first arrangement's `pos`, `neg`, `pred`.
-/
import proofs.«128518_g72645076844940_cont_9to1_m_388_23_alg».proof.Proof.RefRows

noncomputable section

namespace Cert.RefReads

open Cert.ReferenceIdeal Cert.ReferenceIdeal.Facts₀ Cert.ReferenceIdeal.Read Idealize.ShloMosaic Idealize.ShloMosaic.ValueIdx
open Cert.RowModel RowSoftmax Cert.RefRows

macro "idx2" : tactic => `(tactic| (funext a; apply Fin.ext; match a with | ⟨0, _⟩ => rfl | ⟨1, _⟩ => rfl))
macro "idx1" : tactic => `(tactic| (funext a; apply Fin.ext; match a with | ⟨0, _⟩ => rfl))

variable (x0 : (⟨S16384x360, .f32⟩ : BufTy).Contents (Elt Ideal)) (x1 : (⟨S512x512, .f32⟩ : BufTy).Contents (Elt Ideal)) (x2 : (⟨S360x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal))

theorem pos_apply (r : Fin 16384) (j : Fin 512) :
    val_main_v40 (F := Ideal) x0 x1 x2 x3 x4 x5 x6 x7 (ix2 r j)
      = posS (hrow x0 x2 x3 x4 x5 x6 x7 r) (mat x1) (mxPos x0 x1 x2 x3 x4 x5 x6 x7 r) j := by
  rw [val_main_v40_apply, val_main_v39_apply]
  have e1 : ∀ m, lidx_main_v39 (ix2 r j) m = ix2 r m := fun m => by idx2
  have e2 : ∀ m, ridx_main_v39 (ix2 r j) m = ix2 m j := fun m => by idx2
  have e3 : ∀ m : Fin 512, idx_main_v31 (idx_main_v32 (ix2 r m)) = ix1 r := fun m => by idx1
  have e4 : ∀ (m k : Fin 512), idx_main_v35 (idx_main_v36 (idx_main_v37 (ix2 r m))) k = ix2 r k := fun m k => by idx2
  simp only [e1, e2, val_main_v38_apply, val_main_v37_apply, val_main_v36_apply, val_main_v35_apply, val_main_v34_apply,
    val_main_v33_apply, val_main_v32_apply, val_main_v31_apply, val_main_cst_4_apply, e3, e4, RefRows.hidden, scores]
  show hrow x0 x2 x3 x4 x5 x6 x7 r j * (∑ m : Fin 512, Ideal.div (Ideal.exp (score (hrow x0 x2 x3 x4 x5 x6 x7 r) (mat x1) m - mxPos x0 x1 x2 x3 x4 x5 x6 x7 r))
      (Ideal.ofBits .f32 0x00000000#32 + ∑ k : Fin 512, Ideal.exp (score (hrow x0 x2 x3 x4 x5 x6 x7 r) (mat x1) k - mxPos x0 x1 x2 x3 x4 x5 x6 x7 r)) * x1 (ix2 m j)) = _
  rw [Ideal.ofBits_zero_f32]
  simp only [zero_add]
  rfl

theorem neg_apply (r : Fin 16384) (j : Fin 512) :
    val_main_v68 (F := Ideal) x0 x1 x2 x3 x4 x5 x6 x7 (ix2 r j)
      = negS (hrow x0 x2 x3 x4 x5 x6 x7 r) (mat x1) (mxNeg x0 x1 x2 x3 x4 x5 x6 x7 r) j := by
  rw [val_main_v68_apply, val_main_v67_apply]
  have e1 : ∀ m, lidx_main_v67 (ix2 r j) m = ix2 r m := fun m => by idx2
  have e2 : ∀ m, ridx_main_v67 (ix2 r j) m = ix2 m j := fun m => by idx2
  have e3 : ∀ m : Fin 512, idx_main_v59 (idx_main_v60 (ix2 r m)) = ix1 r := fun m => by idx1
  have e4 : ∀ (m k : Fin 512), idx_main_v63 (idx_main_v64 (idx_main_v65 (ix2 r m))) k = ix2 r k := fun m k => by idx2
  simp only [e1, e2, val_main_v66_apply, val_main_v65_apply, val_main_v64_apply, val_main_v63_apply, val_main_v62_apply,
    val_main_v61_apply, val_main_v60_apply, val_main_v59_apply, val_main_cst_11_apply, e3, e4, RefRows.hidden, scoresNeg]
  show hrow x0 x2 x3 x4 x5 x6 x7 r j * (∑ m : Fin 512, Ideal.div (Ideal.exp (score (hrow x0 x2 x3 x4 x5 x6 x7 r) (fun m j => (-1 : EReal) * mat x1 m j) m - mxNeg x0 x1 x2 x3 x4 x5 x6 x7 r))
      (Ideal.ofBits .f32 0x00000000#32 + ∑ k : Fin 512, Ideal.exp (score (hrow x0 x2 x3 x4 x5 x6 x7 r) (fun m j => (-1 : EReal) * mat x1 m j) k - mxNeg x0 x1 x2 x3 x4 x5 x6 x7 r)) * x1 (ix2 m j)) = _
  rw [Ideal.ofBits_zero_f32]
  simp only [zero_add]
  rfl

theorem pred_apply (x8 : (⟨S512x1, .f32⟩ : BufTy).Contents (Elt Ideal)) (x9 : (⟨S1, .f32⟩ : BufTy).Contents (Elt Ideal)) (r : Fin 16384) (z : Fin 1) :
    val_main_v72 (F := Ideal) x0 x2 x3 x4 x5 x6 x7 x8 x9 (ix2 r z)
      = predS (hrow x0 x2 x3 x4 x5 x6 x7 r) (col0 x8) (x9 (ix1 (0 : Fin 1))) := by
  obtain rfl : z = 0 := Subsingleton.elim _ _
  rw [val_main_v72_apply, val_main_v69_apply, val_main_v71_apply, val_main_v70_apply]
  have e1 : ∀ k, lidx_main_v69 (ix2 r (0 : Fin 1)) k = ix2 r k := fun k => by idx2
  have e2 : ∀ k, ridx_main_v69 (ix2 r (0 : Fin 1)) k = ix2 k (0 : Fin 1) := fun k => by idx2
  have e3 : idx_main_v70 (idx_main_v71 (ix2 r (0 : Fin 1))) = ix1 (0 : Fin 1) := by idx1
  simp only [e1, e2, e3, RefRows.hidden]
  rfl

/-! ## The three arrays of a problem with real entries -/

theorem scores_real (A : Args) (hA : A.Real) (r : Fin 16384) :
    ∃ (h : Fin 512 → ℝ) (k : Fin 512 → Fin 512 → ℝ), A.hidAt r = (fun j => ((h j : ℝ) : EReal))
      ∧ mat A.K = (fun m j => ((k m j : ℝ) : EReal))
      ∧ (∀ m, val_main_v16 (F := Ideal) A.X A.K A.W0 A.b0 A.W1 A.b1 A.W2 A.b2 (ix2 r m) = ((∑ j, h j * k m j : ℝ) : EReal))
      ∧ (∀ m, val_main_v44 (F := Ideal) A.X A.K A.W0 A.b0 A.W1 A.b1 A.W2 A.b2 (ix2 r m) = ((-(∑ j, h j * k m j) : ℝ) : EReal)) := by
  obtain ⟨h, hh⟩ := A.hidAt_real hA r
  obtain ⟨k, hk⟩ := A.K_real hA
  refine ⟨h, k, hh, hk, fun m => ?_, fun m => ?_⟩
  · rw [scores]
    show score (A.hidAt r) (mat A.K) m = _
    rw [hh, hk, score_coe]
  · rw [scoresNeg]
    show score (A.hidAt r) (fun m j => (-1 : EReal) * mat A.K m j) m = _
    rw [hh, hk, score_neg_coe]

theorem pos_eq (A : Args) (hA : A.Real) :
    val_main_v40 (F := Ideal) A.X A.K A.W0 A.b0 A.W1 A.b1 A.W2 A.b2 = A.pos := by
  funext i
  obtain ⟨r, j, rfl⟩ : ∃ (r : Fin 16384) (j : Fin 512), i = ix2 r j := ⟨i 0, i 1, eq_ix2 i⟩
  obtain ⟨h, k, hh, hk, hs, -⟩ := scores_real A hA r
  obtain ⟨c, hc⟩ := mxPos_real A.X A.K A.W0 A.b0 A.W1 A.b1 A.W2 A.b2 r _ hs
  rw [pos_apply, hc]
  show posS (A.hidAt r) (mat A.K) (c : EReal) j = posW (A.hidAt r) (mat A.K) j
  rw [hh, hk]
  exact (congrFun (posW_eq_posS h k c) j).symm

theorem neg_eq (A : Args) (hA : A.Real) :
    val_main_v68 (F := Ideal) A.X A.K A.W0 A.b0 A.W1 A.b1 A.W2 A.b2 = A.neg := by
  funext i
  obtain ⟨r, j, rfl⟩ : ∃ (r : Fin 16384) (j : Fin 512), i = ix2 r j := ⟨i 0, i 1, eq_ix2 i⟩
  obtain ⟨h, k, hh, hk, -, hs⟩ := scores_real A hA r
  obtain ⟨c, hc⟩ := mxNeg_real A.X A.K A.W0 A.b0 A.W1 A.b1 A.W2 A.b2 r _ hs
  rw [neg_apply, hc]
  show negS (A.hidAt r) (mat A.K) (c : EReal) j = negW (A.hidAt r) (mat A.K) j
  rw [hh, hk]
  exact (congrFun (negW_eq_negS h k c) j).symm

/-- The prediction needs no finiteness: the two programs differ by the order of the factors only. -/
theorem pred_eq (A : Args) :
    val_main_v72 (F := Ideal) A.X A.W0 A.b0 A.W1 A.b1 A.W2 A.b2 A.Wd A.bd = A.pred := by
  funext i
  obtain ⟨r, z, rfl⟩ : ∃ (r : Fin 16384) (z : Fin 1), i = ix2 r z := ⟨i 0, i 1, eq_ix2 i⟩
  rw [pred_apply]
  exact (predW_eq_predS _ _ _).symm

end Cert.RefReads

end
-- ==== Proof.FiniteInputs.lean ====
/-
  The precondition: every entry of every float input is a real.

  The stated precondition is the conjunction, over the ten inputs, of "every entry has absolute value below +∞".
  On the extended reals `|x| = max x (-x) < ⊤` says `x ≠ ⊤` and `x ≠ ⊥`, that is, x is the image of a real.
-/
import proofs.«128518_g72645076844940_cont_9to1_m_388_23_alg».proof.Defs
import proofs.«128518_g72645076844940_cont_9to1_m_388_23_alg».proof.Proof.Gen.Pre_finite_inputs
import proofs.«128518_g72645076844940_cont_9to1_m_388_23_alg».proof.Proof.KernelArrays
import Idealize.ShloMosaic.Lib.ReduceAll

noncomputable section

namespace Cert.FiniteInputs

open Idealize.ShloMosaic Idealize.ShloMosaic.ValueIdx Idealize.ShloMosaic.TcCoe Cert.RowModel Cert.KernelArrays

instance : Subsingleton (⟨0, ![]⟩ : Shape).Idx := ⟨fun a b => funext fun d => d.elim0⟩

/-- An extended real whose absolute value is below +∞ is the image of a real. -/
theorem real_of_abs_lt_top (x : EReal) (h : max x (-x) < ⊤) : ∃ r : ℝ, x = (r : EReal) := by
  have h1 : x ≠ ⊤ := fun e => by rw [e] at h; simp at h
  have h2 : x ≠ ⊥ := fun e => by rw [e] at h; simp at h
  exact ⟨x.toReal, (EReal.coe_toReal h1 h2).symm⟩

/-- If `all (|x| < +∞)` over a whole array is true, every entry of the array is the image of a real. -/
theorem entry_real {s : Shape} {axes : List (Fin s.rank)} (x : FVec Ideal s .f32) (init : (⟨0, ![]⟩ : Shape).Idx → BitVec 1)
    (h : s.ReducesTo axes ⟨0, ![]⟩) (hu : 0 < (⟨0, ![]⟩ : Shape).numel) (bc : (⟨0, ![]⟩ : Shape).BroadcastsInDim s ![])
    (e : Host.reduce IntOp.andi (cmpf .olt (Host.absf x) (broadcastInDim s ![] bc (constant (⟨0, ![]⟩ : Shape) .f32 0x7F800000#32)))
        init h hu ix0 = 1#1) (i : s.Idx) : ∃ r : ℝ, x i = (r : EReal) := by
  have h1 := Host.reduce_andi_all _ init h hu ix0 e i
  have hb : broadcastInDim s ![] bc (constant (F := Ideal) (⟨0, ![]⟩ : Shape) .f32 0x7F800000#32) i = (⊤ : EReal) := by
    rw [broadcastInDim_apply _ bc _ i ix0 (fun a => a.elim0)]
    show Ideal.ofBits .f32 0x7F800000#32 = ⊤
    simp [Ideal.ofBits, Ideal.ieee]
  have h2 : Ideal.cmp .olt (max (x i) (-(x i))) (broadcastInDim s ![] bc (constant (F := Ideal) (⟨0, ![]⟩ : Shape) .f32 0x7F800000#32) i) = 1#1 := h1
  rw [hb] at h2
  refine real_of_abs_lt_top (x i) ?_
  by_contra hn
  simp [Ideal.cmp, hn] at h2

/-- Under the stated precondition every entry of the launch memory's inputs is the image of a real. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) : (argsOf m c).Real := by
  have h := congrFun (hpre c) ix0
  simp only [Cert.Pre_finite_inputs.fn, Cert.Pre_finite_inputs.fn_part1, Cert.Pre_finite_inputs.fn_part2, andi,
    IntOp.andi_eq_one] at h
  obtain ⟨⟨⟨⟨⟨⟨⟨⟨⟨h0, h1⟩, h2⟩, h3⟩, h4⟩, h5⟩, h6⟩, h7⟩, -⟩, -⟩ := h
  exact ⟨fun i => entry_real _ _ _ _ _ h0 i, fun i => entry_real _ _ _ _ _ h1 i, fun i => entry_real _ _ _ _ _ h2 i,
    fun i => entry_real _ _ _ _ _ h3 i, fun i => entry_real _ _ _ _ _ h4 i, fun i => entry_real _ _ _ _ _ h5 i,
    fun i => entry_real _ _ _ _ _ h6 i, fun i => entry_real _ _ _ _ _ h7 i⟩

end Cert.FiniteInputs

end
-- ==== Proof.lean ====
/-
  The fused kernel against its jnp reference, on the extended reals, for finite inputs.

  Both programs push each of the 16384 batch rows through three dense layers with a relu to a hidden row h, score
  it against the 512 rows of a memory bank K, and return
    • a prediction h · wd + bd,
    • a "negative" and a "positive" read: h times the softmax of ∓(h · Kᵀ) read against K,
    • the bank itself.
  The kernel takes the transposed batch, a block of 1024 rows per grid point; it forms the weights
  t = exp (h · Kᵀ) and 1 / t, normalises by their row sums once, outside the sum over the bank, and writes the
  prediction as a row that the host transposes back. The reference takes the softmax with the row maximum
  subtracted and each weight normalised, and scores the negative read against −1 · K.

  The hidden rows agree term by term (the transposes only rename indices). The predictions differ by the order of
  the factors in each product. The two reads agree where every entry is real: then the hidden rows, the scores and
  the row maxima are real, exp (s − c) = exp s / exp c cancels the shift, 1 / exp s = exp (−s) matches the negated
  bank, and 1 / Σ t distributes over the finite sum (Proof/LibRowSoftmax.lean, Proof/RowModel.lean). That the
  entries are real is what the precondition states (Proof/FiniteInputs.lean).

  Kernel side: Proof/KernelRows.lean (a block's three stores, row by row), Proof/KernelArrays.lean (the blocks a
  point stages), Proof/KernelRun.lean (the write-backs tile the outputs), Proof/KernelValue.lean (the run).
  Reference side: Proof/RefRows.lean (hidden rows, scores, row maxima), Proof/RefReads.lean (the three results).
-/
import proofs.«128518_g72645076844940_cont_9to1_m_388_23_alg».proof.Defs
import proofs.«128518_g72645076844940_cont_9to1_m_388_23_alg».proof.Proof.Gen.Kernel
import proofs.«128518_g72645076844940_cont_9to1_m_388_23_alg».proof.Proof.Gen.Kernel.Frame
import proofs.«128518_g72645076844940_cont_9to1_m_388_23_alg».proof.Proof.Gen.KernelIdeal
import proofs.«128518_g72645076844940_cont_9to1_m_388_23_alg».proof.Proof.Gen.KernelIdeal.Frame
import proofs.«128518_g72645076844940_cont_9to1_m_388_23_alg».proof.Proof.Gen.ReferenceIdeal
import proofs.«128518_g72645076844940_cont_9to1_m_388_23_alg».proof.Proof.Gen.Pre_finite_inputs
import proofs.«128518_g72645076844940_cont_9to1_m_388_23_alg».proof.Proof.Gen.ReferenceIdeal.Run
import proofs.«128518_g72645076844940_cont_9to1_m_388_23_alg».proof.Proof.Gen.ReferenceIdeal.Read
import proofs.«128518_g72645076844940_cont_9to1_m_388_23_alg».proof.Proof.KernelValue
import proofs.«128518_g72645076844940_cont_9to1_m_388_23_alg».proof.Proof.RefReads
import proofs.«128518_g72645076844940_cont_9to1_m_388_23_alg».proof.Proof.FiniteInputs

noncomputable section

namespace Cert.Proof

open Idealize.ShloMosaic Idealize.ShloMosaic.TcCoe Idealize.SL.Sem Cert.RowModel Cert.KernelArrays

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From memories that agree on the arguments, both programs end with the row model's three arrays of the
    kernel's launch memory and the bank: the kernel by its run, the reference because at real entries its
    prediction, negative read and positive read are those arrays. -/
theorem algebraic : Cert.algebraic_KernelIdeal_ReferenceIdeal := by
  intro m ρ m' ρ' hpre hagree
  refine ⟨fun c => (argsOf m c).pred, fun c => (argsOf m c).neg, fun c => (argsOf m c).pos,
    fun c => m ((c.tc : Thread Cert.KernelIdeal.nD Cert.KernelIdeal.τ).loc Cert.KernelIdeal.main_arg1),
    Cert.KernelValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9⟩ := hagree c
  have hA : (argsOf m c).Real := Cert.FiniteInputs.real_of_pre m hpre c
  obtain ⟨h72, h68, h40, h1, rest⟩ := h c
  refine ⟨?_, ?_, ?_, ?_, rest⟩
  · rw [h72, a0, a2, a3, a4, a5, a6, a7, a8, a9]
    exact (Cert.ReferenceIdeal.Read.val_main_v72_eq _ _ _ _ _ _ _ _ _).trans (Cert.RefReads.pred_eq (argsOf m c))
  · rw [h68, Cert.ReferenceIdeal.Read.val_main_v68_eq, a0, a1, a2, a3, a4, a5, a6, a7]
    exact Cert.RefReads.neg_eq (argsOf m c) hA
  · rw [h40, Cert.ReferenceIdeal.Read.val_main_v40_eq, a0, a1, a2, a3, a4, a5, a6, a7]
    exact Cert.RefReads.pos_eq (argsOf m c) hA
  · rw [h1, a1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
